-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S2048 : Shape := ⟨1, ![2048]⟩
abbrev S_ : Shape := ⟨0, ![]⟩
abbrev S64x2048x1 : Shape := ⟨3, ![64, 2048, 1]⟩
abbrev S64x2048 : Shape := ⟨2, ![64, 2048]⟩
abbrev S1x2048 : Shape := ⟨2, ![1, 2048]⟩
abbrev S2048x1 : Shape := ⟨2, ![2048, 1]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S2048 : S_.BroadcastsInDim S2048 (![] : Fin 0 → Fin S2048.rank)
  reducesTo_S2048_S_d0 : S2048.ReducesTo [0] S_
  slices_S64x2048x512_S64x2048x1_0_0_511 : S64x2048x512.Slices ![0, 0, 511] S64x2048x1
  shapeCasts_S64x2048x1_S64x2048 : S64x2048x1.ShapeCasts S64x2048
  reducesTo_S64x2048_S2048_d0 : S64x2048.ReducesTo [0] S2048
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S64x2048_0_1 : S1x2048.BroadcastsInDim S64x2048 (![0, 1] : Fin 2 → Fin S64x2048.rank)
  bcast_S2048_S2048x1_0 : S2048.BroadcastsInDim S2048x1 (![0] : Fin 1 → Fin S2048x1.rank)
  gather_S2048_S2048x1_S2048_n_0_n_n_0_1_1_wf : GatherDims.WF S2048 S2048x1 S2048 [] [0] [] [0] [] 1 ![1]

variable [Facts]

def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf
def fn_part4 {F : FTy → Type} [FloatOps F] (main_v13 : IVec S_ 1) (main_v70 : IVec S2048 1) (main_c_22 : IVec S_ 1) : IVec S_ 1 :=
  let main_v71 : IVec S_ 1 := (fun x v => Host.reduce IntOp.andi x v reducesTo_S2048_S_d0 h_S_) main_v70 main_c_22
  let main_v72 : IVec S_ 1 := andi main_v13 main_v71
  main_v72

def fn_part3 {F : FTy → Type} [FloatOps F] (main_v13 : IVec S_ 1) (main_v18 : FVec F S2048 .f32) (main_v30 : FVec F S2048 .f32) (main_v38 : FVec F S2048 .f32) (main_v45 : FVec F S2048 .f32) (main_v52 : FVec F S2048 .f32) : IVec S_ 1 :=
  let main_v53 : FVec F S2048 .f32 := subf main_v18 main_v45
  let main_cst_17 : FVec F S_ .f32 := constant S_ .f32 0x42800000#32
  let main_v54 : FVec F S2048 .f32 := broadcastInDim S2048 ![] bcast_S_S2048 main_cst_17
  let main_v55 : FVec F S2048 .f32 := addf main_v38 main_v54
  let main_v56 : FVec F S2048 .f32 := addf main_v52 main_v30
  let main_v57 : FVec F S2048 .f32 := mulf main_v53 main_v53
  let main_v58 : FVec F S2048 .f32 := mulf main_v57 main_v38
  let main_cst_18 : FVec F S_ .f32 := constant S_ .f32 0x42800000#32
  let main_v59 : FVec F S2048 .f32 := broadcastInDim S2048 ![] bcast_S_S2048 main_cst_18
  let main_v60 : FVec F S2048 .f32 := mulf main_v58 main_v59
  let main_v61 : FVec F S2048 .f32 := Host.divf main_v60 main_v55
  let main_v62 : FVec F S2048 .f32 := addf main_v56 main_v61
  let main_v63 : FVec F S2048 .f32 := Host.divf main_v62 main_v55
  let main_cst_19 : FVec F S_ .f32 := constant S_ .f32 0x40000000#32
  let main_v64 : FVec F S2048 .f32 := broadcastInDim S2048 ![] bcast_S_S2048 main_cst_19
  let main_v65 : IVec S2048 1 := cmpf .olt main_v55 main_v64
  let main_cst_20 : FVec F S_ .f32 := constant S_ .f32 0x322BCC77#32
  let main_v66 : FVec F S2048 .f32 := broadcastInDim S2048 ![] bcast_S_S2048 main_cst_20
  let main_v67 : FVec F S2048 .f32 := addf main_v63 main_v66
  let main_cst_21 : FVec F S_ .f32 := constant S_ .f32 0x00000000#32
  let main_v68 : FVec F S2048 .f32 := broadcastInDim S2048 ![] bcast_S_S2048 main_cst_21
  let main_v69 : IVec S2048 1 := cmpf .ogt main_v67 main_v68
  let main_v70 : IVec S2048 1 := ori main_v65 main_v69
  let main_c_22 : IVec S_ 1 := constantI S_ 1 1#1
  fn_part4 (F := F) main_v13 main_v70 main_c_22

def fn_part2 {F : FTy → Type} [FloatOps F] (main_arg1 : FVec F S2048 .f32) (main_arg2 : FVec F S2048 .f32) (main_arg3 : IVec S2048 32) (main_arg4 : IVec S2048 32) (main_v13 : IVec S_ 1) (main_v18 : FVec F S2048 .f32) (main_v30 : FVec F S2048 .f32) (main_v32 : IVec S2048 1) (main_c_12 : IVec S_ 32) : IVec S_ 1 :=
  let main_v33 : IVec S2048 32 := broadcastInDim S2048 ![] bcast_S_S2048 main_c_12
  let main_v34 : IVec S2048 32 := addi main_arg4 main_v33
  let main_v35 : IVec S2048 32 := select main_v32 main_v34 main_arg4
  let main_v36 : IVec S2048x1 32 := broadcastInDim S2048x1 ![0] bcast_S2048_S2048x1_0 main_v35
  let main_v37 : IVec S2048 32 := (fun x i => Host.gather gather_S2048_S2048x1_S2048_n_0_n_n_0_1_1 x i) main_arg3 main_v36
  let main_v38 : FVec F S2048 .f32 := sitofp .f32 main_v37
  let main_c_13 : IVec S_ 32 := constantI S_ 32 0#32
  let main_v39 : IVec S2048 32 := broadcastInDim S2048 ![] bcast_S_S2048 main_c_13
  let main_v40 : IVec S2048 1 := cmpi .slt main_arg4 main_v39
  let main_c_14 : IVec S_ 32 := constantI S_ 32 2048#32
  let main_v41 : IVec S2048 32 := broadcastInDim S2048 ![] bcast_S_S2048 main_c_14
  let main_v42 : IVec S2048 32 := addi main_arg4 main_v41
  let main_v43 : IVec S2048 32 := select main_v40 main_v42 main_arg4
  let main_v44 : IVec S2048x1 32 := broadcastInDim S2048x1 ![0] bcast_S2048_S2048x1_0 main_v43
  let main_v45 : FVec F S2048 .f32 := (fun x i => Host.gather gather_S2048_S2048x1_S2048_n_0_n_n_0_1_1 x i) main_arg1 main_v44
  let main_c_15 : IVec S_ 32 := constantI S_ 32 0#32
  let main_v46 : IVec S2048 32 := broadcastInDim S2048 ![] bcast_S_S2048 main_c_15
  let main_v47 : IVec S2048 1 := cmpi .slt main_arg4 main_v46
  let main_c_16 : IVec S_ 32 := constantI S_ 32 2048#32
  let main_v48 : IVec S2048 32 := broadcastInDim S2048 ![] bcast_S_S2048 main_c_16
  let main_v49 : IVec S2048 32 := addi main_arg4 main_v48
  let main_v50 : IVec S2048 32 := select main_v47 main_v49 main_arg4
  let main_v51 : IVec S2048x1 32 := broadcastInDim S2048x1 ![0] bcast_S2048_S2048x1_0 main_v50
  let main_v52 : FVec F S2048 .f32 := (fun x i => Host.gather gather_S2048_S2048x1_S2048_n_0_n_n_0_1_1 x i) main_arg2 main_v51
  fn_part3 (F := F) main_v13 main_v18 main_v30 main_v38 main_v45 main_v52

def fn_part1 {F : FTy → Type} [FloatOps F] (main_arg1 : FVec F S2048 .f32) (main_arg2 : FVec F S2048 .f32) (main_arg3 : IVec S2048 32) (main_arg4 : IVec S2048 32) (main_v13 : IVec S_ 1) (main_v15 : FVec F S64x2048 .f32) (main_v16 : FVec F S2048 .f32) : IVec S_ 1 :=
  let main_cst_5 : FVec F S_ .f32 := constant S_ .f32 0x42800000#32
  let main_v17 : FVec F S2048 .f32 := broadcastInDim S2048 ![] bcast_S_S2048 main_cst_5
  let main_v18 : FVec F S2048 .f32 := Host.divf main_v16 main_v17
  let main_cst_6 : FVec F S_ .f32 := constant S_ .f32 0x00000000#32
  let main_v19 : FVec F S2048 .f32 := (fun x v => Host.reduceAdd x v reducesTo_S64x2048_S2048_d0 h_S_) main_v15 main_cst_6
  let main_v20 : FVec F S1x2048 .f32 := broadcastInDim S1x2048 ![1] bcast_S2048_S1x2048_1 main_v19
  let main_cst_7 : FVec F S_ .f32 := constant S_ .f32 0x42800000#32
  let main_v21 : FVec F S1x2048 .f32 := broadcastInDim S1x2048 ![] bcast_S_S1x2048 main_cst_7
  let main_v22 : FVec F S1x2048 .f32 := Host.divf main_v20 main_v21
  let main_v23 : FVec F S64x2048 .f32 := broadcastInDim S64x2048 ![0, 1] bcast_S1x2048_S64x2048_0_1 main_v22
  let main_v24 : FVec F S64x2048 .f32 := subf main_v15 main_v23
  let main_v25 : FVec F S64x2048 .f32 := mulf main_v24 main_v24
  let main_cst_8 : FVec F S_ .f32 := constant S_ .f32 0x00000000#32
  let main_v26 : FVec F S2048 .f32 := (fun x v => Host.reduceAdd x v reducesTo_S64x2048_S2048_d0 h_S_) main_v25 main_cst_8
  let main_cst_9 : FVec F S_ .f32 := constant S_ .f32 0x42800000#32
  let main_v27 : FVec F S2048 .f32 := broadcastInDim S2048 ![] bcast_S_S2048 main_cst_9
  let main_v28 : FVec F S2048 .f32 := Host.divf main_v26 main_v27
  let main_cst_10 : FVec F S_ .f32 := constant S_ .f32 0x42800000#32
  let main_v29 : FVec F S2048 .f32 := broadcastInDim S2048 ![] bcast_S_S2048 main_cst_10
  let main_v30 : FVec F S2048 .f32 := mulf main_v28 main_v29
  let main_c_11 : IVec S_ 32 := constantI S_ 32 0#32
  let main_v31 : IVec S2048 32 := broadcastInDim S2048 ![] bcast_S_S2048 main_c_11
  let main_v32 : IVec S2048 1 := cmpi .slt main_arg4 main_v31
  let main_c_12 : IVec S_ 32 := constantI S_ 32 2048#32
  fn_part2 (F := F) main_arg1 main_arg2 main_arg3 main_arg4 main_v13 main_v18 main_v30 main_v32 main_c_12

def fn {F : FTy → Type} [FloatOps F] (main_arg0 : FVec F S64x2048x512 .f32) (main_arg1 : FVec F S2048 .f32) (main_arg2 : FVec F S2048 .f32) (main_arg3 : IVec S2048 32) (main_arg4 : IVec S2048 32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S64x2048x1 .f32 := (extractStridedSlice S64x2048x1 ![0, 0, 511] · slices_S64x2048x512_S64x2048x1_0_0_511) main_arg0
  let main_v15 : FVec F S64x2048 .f32 := shapeCast S64x2048 main_v14 shapeCasts_S64x2048x1_S64x2048
  let main_cst_4 : FVec F S_ .f32 := constant S_ .f32 0x00000000#32
  let main_v16 : FVec F S2048 .f32 := (fun x v => Host.reduceAdd x v reducesTo_S64x2048_S2048_d0 h_S_) main_v15 main_cst_4
  fn_part1 (F := F) main_arg1 main_arg2 main_arg3 main_arg4 main_v13 main_v15 main_v16
-- ==== Kernel.lean ====
abbrev S64x2048x512 : Shape := ⟨3, ![64, 2048, 512]⟩
abbrev S2048 : Shape := ⟨1, ![2048]⟩
abbrev S64x2048x1 : Shape := ⟨3, ![64, 2048, 1]⟩
abbrev S64x2048 : Shape := ⟨2, ![64, 2048]⟩
abbrev S_ : Shape := ⟨0, ![]⟩
abbrev S1x2048 : Shape := ⟨2, ![1, 2048]⟩
abbrev S2048x1 : Shape := ⟨2, ![2048, 1]⟩
abbrev S16x256x512 : Shape := ⟨3, ![16, 256, 512]⟩
abbrev S256x1 : Shape := ⟨2, ![256, 1]⟩
abbrev S1x256x1 : Shape := ⟨3, ![1, 256, 1]⟩

abbrev nBuf : Space → Nat
  | .hbm => 103
  | .vmem => 8
  | .smem => 0
  | _ => 0

abbrev bufTy : (tb : Table) → Fin (tcTables nBuf tb) → BufTy
  | .hbm, ⟨0, _⟩ => ⟨S64x2048x512, .f32⟩
  | .hbm, ⟨1, _⟩ => ⟨S2048, .f32⟩
  | .hbm, ⟨2, _⟩ => ⟨S2048, .f32⟩
  | .hbm, ⟨3, _⟩ => ⟨S2048, .i32⟩
  | .hbm, ⟨4, _⟩ => ⟨S2048, .i32⟩
  | .hbm, ⟨5, _⟩ => ⟨S64x2048x1, .f32⟩
  | .hbm, ⟨6, _⟩ => ⟨S64x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .i32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S64x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S2048, .i32⟩
  | .hbm, ⟨47, _⟩ => ⟨S2048, .f32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .i32⟩
  | .hbm, ⟨55, _⟩ => ⟨S2048x1, .i32⟩
  | .hbm, ⟨56, _⟩ => ⟨S2048, .f32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048x1, .i32⟩
  | .hbm, ⟨65, _⟩ => ⟨S2048, .f32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S2048, .f32⟩
  | .hbm, ⟨78, _⟩ => ⟨S_, .f32⟩
  | .hbm, ⟨79, _⟩ => ⟨S2048, .f32⟩
  | .hbm, ⟨80, _⟩ => ⟨S2048, .f32⟩
  | .hbm, ⟨81, _⟩ => ⟨S2048, .f32⟩
  | .hbm, ⟨82, _⟩ => ⟨S2048, .f32⟩
  | .hbm, ⟨83, _⟩ => ⟨S2048, .f32⟩
  | .hbm, ⟨84, _⟩ => ⟨S_, .f32⟩
  | .hbm, ⟨85, _⟩ => ⟨S2048, .f32⟩
  | .hbm, ⟨86, _⟩ => ⟨S2048, .f32⟩
  | .hbm, ⟨87, _⟩ => ⟨S2048, .f32⟩
  | .hbm, ⟨88, _⟩ => ⟨S_, .f32⟩
  | .hbm, ⟨89, _⟩ => ⟨S2048, .f32⟩
  | .hbm, ⟨90, _⟩ => ⟨S2048, .i1⟩
  | .hbm, ⟨91, _⟩ => ⟨S_, .f32⟩
  | .hbm, ⟨92, _⟩ => ⟨S2048, .f32⟩
  | .hbm, ⟨93, _⟩ => ⟨S2048, .f32⟩
  | .hbm, ⟨94, _⟩ => ⟨S_, .f32⟩
  | .hbm, ⟨95, _⟩ => ⟨S2048, .f32⟩
  | .hbm, ⟨96, _⟩ => ⟨S2048, .f32⟩
  | .hbm, ⟨97, _⟩ => ⟨S_, .f32⟩
  | .hbm, ⟨98, _⟩ => ⟨S2048, .f32⟩
  | .hbm, ⟨99, _⟩ => ⟨S2048, .f32⟩
  | .hbm, ⟨100, _⟩ => ⟨S2048x1, .f32⟩
  | .hbm, ⟨101, _⟩ => ⟨S2048x1, .f32⟩
  | .hbm, ⟨102, _⟩ => ⟨S64x2048x512, .f32⟩
  | .local _ .vmem, ⟨0, _⟩ => ⟨S16x256x512, .f32⟩
  | .local _ .vmem, ⟨1, _⟩ => ⟨S16x256x512, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S16x256x512, .f32⟩
  | .local _ .vmem, ⟨7, _⟩ => ⟨S16x256x512, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_cst_1 : Ref sig .tc := ⟨.hbm, 35, rfl⟩
abbrev main_v6 : Ref sig .tc := ⟨.hbm, 36, rfl⟩
abbrev main_v7 : Ref sig .tc := ⟨.hbm, 37, rfl⟩
abbrev main_c_2 : Ref sig .tc := ⟨.hbm, 38, rfl⟩
abbrev main_v8 : Ref sig .tc := ⟨.hbm, 39, rfl⟩
abbrev main_v9 : Ref sig .tc := ⟨.hbm, 40, rfl⟩
abbrev main_c_3 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_c_4 : Ref sig .tc := ⟨.hbm, 48, rfl⟩
abbrev main_v16 : Ref sig .tc := ⟨.hbm, 49, rfl⟩
abbrev main_v17 : Ref sig .tc := ⟨.hbm, 50, rfl⟩
abbrev main_c_5 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_6 : Ref sig .tc := ⟨.hbm, 57, rfl⟩
abbrev main_v23 : Ref sig .tc := ⟨.hbm, 58, rfl⟩
abbrev main_v24 : Ref sig .tc := ⟨.hbm, 59, rfl⟩
abbrev main_c_7 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_8 : Ref sig .tc := ⟨.hbm, 67, rfl⟩
abbrev main_v31 : Ref sig .tc := ⟨.hbm, 68, rfl⟩
abbrev main_v32 : Ref sig .tc := ⟨.hbm, 69, rfl⟩
abbrev main_cst_9 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_10 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_11 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_12 : Ref sig .tc := ⟨.hbm, 88, rfl⟩
abbrev main_v48 : Ref sig .tc := ⟨.hbm, 89, rfl⟩
abbrev main_v49 : Ref sig .tc := ⟨.hbm, 90, rfl⟩
abbrev main_cst_13 : Ref sig .tc := ⟨.hbm, 91, rfl⟩
abbrev main_v50 : Ref sig .tc := ⟨.hbm, 92, rfl⟩
abbrev main_v51 : Ref sig .tc := ⟨.hbm, 93, rfl⟩
abbrev main_cst_14 : Ref sig .tc := ⟨.hbm, 94, rfl⟩
abbrev main_v52 : Ref sig .tc := ⟨.hbm, 95, rfl⟩
abbrev main_v53 : Ref sig .tc := ⟨.hbm, 96, rfl⟩
abbrev main_cst_15 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S64x2048x512_S64x2048x1_0_0_511 : S64x2048x512.Slices ![0, 0, 511] S64x2048x1
  shapeCasts_S64x2048x1_S64x2048 : S64x2048x1.ShapeCasts S64x2048
  reducesTo_S64x2048_S2048_d0 : S64x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S64x2048_0_1 : S1x2048.BroadcastsInDim S64x2048 (![0, 1] : Fin 2 → Fin S64x2048.rank)
  bcast_S2048_S2048x1_0 : S2048.BroadcastsInDim S2048x1 (![0] : Fin 1 → Fin S2048x1.rank)
  shapeCasts_S2048_S2048x1 : S2048.ShapeCasts S2048x1
  inb_S16x256x512_S16x256x512_0_0_0 : ∀ a, (![0, 0, 0] : Fin 3 → Nat) a + S16x256x512.size a ≤ S16x256x512.size a
  h_S16x256x512 : 0 < S16x256x512.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x1_S1x256x1 : S256x1.ShapeCasts S1x256x1
  broadcasts_S1x256x1_S16x256x512 : S1x256x1.Broadcasts S16x256x512
  gather_S2048_S2048x1_S2048_n_0_n_n_0_1_1_wf : GatherDims.WF S2048 S2048x1 S2048 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x512.size a ≤ S64x2048x512.size a
  hwx0_0 : ∀ i : grid0.Coords, EltTy.bits .f32 = 32 ∨ (Rect.block (s := S64x2048x512) S16x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .f32 = 32 ∨ (Rect.block (s := S2048x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x512.size a ≤ S64x2048x512.size a
  hwx0_3 : ∀ i : grid0.Coords, EltTy.bits .f32 = 32 ∨ (Rect.block (s := S64x2048x512) S16x256x512.size (cc0_transform_3 i) (hinb0_3 i)).WholeWords (EltTy.packing .f32)

variable [Facts₀]

def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf

abbrev win0_0 : Pipeline.Window sig grid0 :=
  Pipeline.Window.ofSpec (Memref.whole main_arg0) S16x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58) S16x256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S2048 : Shape := ⟨1, ![2048]⟩
abbrev S64x2048x1 : Shape := ⟨3, ![64, 2048, 1]⟩
abbrev S64x2048 : Shape := ⟨2, ![64, 2048]⟩
abbrev S_ : Shape := ⟨0, ![]⟩
abbrev S1x2048 : Shape := ⟨2, ![1, 2048]⟩
abbrev S2048x1 : Shape := ⟨2, ![2048, 1]⟩
abbrev S1x2048x1 : Shape := ⟨3, ![1, 2048, 1]⟩

abbrev nBuf : Space → Nat
  | .hbm => 100
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S2048, .f32⟩
  | .hbm, ⟨2, _⟩ => ⟨S2048, .f32⟩
  | .hbm, ⟨3, _⟩ => ⟨S2048, .i32⟩
  | .hbm, ⟨4, _⟩ => ⟨S2048, .i32⟩
  | .hbm, ⟨5, _⟩ => ⟨S64x2048x1, .f32⟩
  | .hbm, ⟨6, _⟩ => ⟨S64x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .i32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S64x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S2048, .i32⟩
  | .hbm, ⟨47, _⟩ => ⟨S2048, .f32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .i32⟩
  | .hbm, ⟨55, _⟩ => ⟨S2048x1, .i32⟩
  | .hbm, ⟨56, _⟩ => ⟨S2048, .f32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048x1, .i32⟩
  | .hbm, ⟨65, _⟩ => ⟨S2048, .f32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S2048, .f32⟩
  | .hbm, ⟨78, _⟩ => ⟨S_, .f32⟩
  | .hbm, ⟨79, _⟩ => ⟨S2048, .f32⟩
  | .hbm, ⟨80, _⟩ => ⟨S2048, .f32⟩
  | .hbm, ⟨81, _⟩ => ⟨S2048, .f32⟩
  | .hbm, ⟨82, _⟩ => ⟨S2048, .f32⟩
  | .hbm, ⟨83, _⟩ => ⟨S2048, .f32⟩
  | .hbm, ⟨84, _⟩ => ⟨S_, .f32⟩
  | .hbm, ⟨85, _⟩ => ⟨S2048, .f32⟩
  | .hbm, ⟨86, _⟩ => ⟨S2048, .f32⟩
  | .hbm, ⟨87, _⟩ => ⟨S2048, .f32⟩
  | .hbm, ⟨88, _⟩ => ⟨S1x2048x1, .f32⟩
  | .hbm, ⟨89, _⟩ => ⟨S64x2048x512, .f32⟩
  | .hbm, ⟨90, _⟩ => ⟨S64x2048x512, .f32⟩
  | .hbm, ⟨91, _⟩ => ⟨S1x2048x1, .f32⟩
  | .hbm, ⟨92, _⟩ => ⟨S64x2048x512, .f32⟩
  | .hbm, ⟨93, _⟩ => ⟨S64x2048x512, .f32⟩
  | .hbm, ⟨94, _⟩ => ⟨S_, .f32⟩
  | .hbm, ⟨95, _⟩ => ⟨S2048, .f32⟩
  | .hbm, ⟨96, _⟩ => ⟨S2048, .i1⟩
  | .hbm, ⟨97, _⟩ => ⟨S1x2048x1, .i1⟩
  | .hbm, ⟨98, _⟩ => ⟨S64x2048x512, .i1⟩
  | .hbm, ⟨99, _⟩ => ⟨S64x2048x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_cst_1 : Ref sig .tc := ⟨.hbm, 35, rfl⟩
abbrev main_v6 : Ref sig .tc := ⟨.hbm, 36, rfl⟩
abbrev main_v7 : Ref sig .tc := ⟨.hbm, 37, rfl⟩
abbrev main_c_2 : Ref sig .tc := ⟨.hbm, 38, rfl⟩
abbrev main_v8 : Ref sig .tc := ⟨.hbm, 39, rfl⟩
abbrev main_v9 : Ref sig .tc := ⟨.hbm, 40, rfl⟩
abbrev main_c_3 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_c_4 : Ref sig .tc := ⟨.hbm, 48, rfl⟩
abbrev main_v16 : Ref sig .tc := ⟨.hbm, 49, rfl⟩
abbrev main_v17 : Ref sig .tc := ⟨.hbm, 50, rfl⟩
abbrev main_c_5 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_6 : Ref sig .tc := ⟨.hbm, 57, rfl⟩
abbrev main_v23 : Ref sig .tc := ⟨.hbm, 58, rfl⟩
abbrev main_v24 : Ref sig .tc := ⟨.hbm, 59, rfl⟩
abbrev main_c_7 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_8 : Ref sig .tc := ⟨.hbm, 67, rfl⟩
abbrev main_v31 : Ref sig .tc := ⟨.hbm, 68, rfl⟩
abbrev main_v32 : Ref sig .tc := ⟨.hbm, 69, rfl⟩
abbrev main_cst_9 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_10 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_11 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_12 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_call1_v0 : Ref sig .tc := ⟨.hbm, 98, rfl⟩
abbrev main_v57 : Ref sig .tc := ⟨.hbm, 99, rfl⟩

abbrev nD : Nat := 1
abbrev τ : Topo := Topo.v7x

variable {F : FTy → Type} [FloatOps F]

class Facts₀ : Prop where
  slices_S64x2048x512_S64x2048x1_0_0_511 : S64x2048x512.Slices ![0, 0, 511] S64x2048x1
  shapeCasts_S64x2048x1_S64x2048 : S64x2048x1.ShapeCasts S64x2048
  reducesTo_S64x2048_S2048_d0 : S64x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S64x2048_0_1 : S1x2048.BroadcastsInDim S64x2048 (![0, 1] : Fin 2 → Fin S64x2048.rank)
  bcast_S2048_S2048x1_0 : S2048.BroadcastsInDim S2048x1 (![0] : Fin 1 → Fin S2048x1.rank)
  bcast_S2048_S1x2048x1_1 : S2048.BroadcastsInDim S1x2048x1 (![1] : Fin 1 → Fin S1x2048x1.rank)
  bcast_S1x2048x1_S64x2048x512_0_1_2 : S1x2048x1.BroadcastsInDim S64x2048x512 (![0, 1, 2] : Fin 3 → Fin S64x2048x512.rank)
  gather_S2048_S2048x1_S2048_n_0_n_n_0_1_1_wf : GatherDims.WF S2048 S2048x1 S2048 [] [0] [] [0] [] 1 ![1]

variable [Facts₀]

def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf

class Facts : Prop extends Facts₀ where

variable [Facts]
-- ==== Proof.KernelArray.lean ====
/- The kernel program's output array after the run, as one function of the three arrays its windows stage.
   Each grid point writes back the block of one whole-array function `affine` of those arrays that its output
   window names (`flushed_eq`); the thirty-two blocks tile the array (`cover`); so the array ends holding
   `affine` of them (`final`), and every run ends with the output array at that function (`run`). -/
import proofs.«102394_j40862318854702_2_alg».proof.Proof.Gen.KernelIdeal.Value
import Idealize.ShloMosaic.Lib.Pipeline.Value

noncomputable section

namespace Cert.KernelIdeal.Arr

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The whole-array function -/

/-- The row of the two [2048,1] arrays that index `i` of the [64,2048,512] array reads: its middle coordinate, column 0. -/
abbrev rowOf (i : S64x2048x512.Idx) : S2048x1.Idx := fun a => match a with
  | ⟨0, _⟩ => ⟨(i 1).val, by have hi1 : (i 1).val < 2048 := (i 1).isLt; show (i 1).val < 2048; omega⟩
  | ⟨1, _⟩ => ⟨0, by show 0 < 1; omega⟩

/-- Every element less its row's entry of `s1`, times its row's entry of `s2`. -/
def affine (x : Vec F S64x2048x512 .f32) (s1 s2 : Vec F S2048x1 .f32) : Vec F S64x2048x512 .f32 :=
  fun i => FloatOps.mulf (FloatOps.subf (x i) (s1 (rowOf i))) (s2 (rowOf i))

/-! ## The index maps over the grid -/

theorem zero3 : (![0, 0, 0] : Fin 3 → Nat) = fun _ => 0 := funext fun a => by fin_cases a <;> rfl
theorem zero2 : (![0, 0] : Fin 2 → Nat) = fun _ => 0 := funext fun a => by fin_cases a <;> rfl

/-- At every grid point the first input window sits on the output window's block, and the two row windows on the
    block of rows the output block's middle axis names, in column block 0. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = win0_3.index t (2 : Fin 3)
    ∧ win0_1.index t (0 : Fin 2) = win0_3.index t (1 : Fin 3)
    ∧ win0_1.index t (1 : Fin 2) = 0
    ∧ win0_2.index t (0 : Fin 2) = win0_3.index t (1 : Fin 3)
    ∧ win0_2.index t (1 : Fin 2) = 0 :=
  (by decide +kernel : ∀ t : Fin grid0.N, _)

/-- Every block index (q0, q1, 0) with q0 < 4 and q1 < 8 is some grid point's. -/
theorem idx_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-! ## What a point writes back -/

/-- The block the body leaves from input blocks `P0`, `P1`, `P2`: at block index `y` the element `P0 y` less row `y 1` of `P1`,
    times row `y 1` of `P2` (`Value.E3`; the body loads and stores its whole staging buffers). -/
theorem block_eq (P0 : Vec F S16x256x512 .f32) (P1 P2 : Vec F S256x1 .f32) :
    out0_3 P0 P1 P2 = Value.E3 P0 P1 P2 := by
  unfold out0_3
  simp only [View.ld_unit_zero (S := S16x256x512) zero3, View.ld_unit_zero (S := S256x1) zero2]
  funext y
  exact Value.canon3_eq P0 P1 P2 y

/-- Over ANY three arrays of the staged arrays' shapes: the body's block of the three windows' blocks at point `t` is
    block `t` of `affine` of the arrays. The first window's rectangle is the output's; the two row windows' rectangles
    are rows `256 * q` to `256 * q + 255`, column 0, where `q` is the output block's index on the middle axis, so a block
    element at `(y 0, y 1, y 2)` reads the row that its array index names (`idx_facts`). -/
theorem blocks_eq (A0 : Vec F S64x2048x512 .f32) (A1 A2 : Vec F S2048x1 .f32) (t : Fin cfg0.N) :
    (cfg0.win 3).cut (grid0.coords t)
        (Value.E3 (((cfg0.win 0).blk t).view.read (Elt F) A0) (((cfg0.win 1).blk t).view.read (Elt F) A1)
          (((cfg0.win 2).blk t).view.read (Elt F) A2))
      = ((cfg0.win 3).blk t).view.read (Elt F) (affine A0 A1 A2) := by
  obtain ⟨e0, e1, e2, e3, e4, e5, e6⟩ := idx_facts t
  funext j
  show FloatOps.mulf (FloatOps.subf (A0 (((cfg0.win 0).blk t).view.emb (Value.ix3_0 j)))
        (A1 (((cfg0.win 1).blk t).view.emb (Value.ix3_1 j))))
        (A2 (((cfg0.win 2).blk t).view.emb (Value.ix3_2 j)))
      = FloatOps.mulf (FloatOps.subf (A0 (((cfg0.win 3).blk t).view.emb j))
        (A1 (rowOf (((cfg0.win 3).blk t).view.emb j))))
        (A2 (rowOf (((cfg0.win 3).blk t).view.emb j)))
  have hj0 : (j 0).val < 16 := (j 0).isLt
  have hj1 : (j 1).val < 256 := (j 1).isLt
  have hj2 : (j 2).val < 512 := (j 2).isLt
  have h0 : ((cfg0.win 0).blk t).view.emb (Value.ix3_0 j) = ((cfg0.win 3).blk t).view.emb j := by
    funext a; apply Fin.ext
    match a with
    | ⟨0, _⟩ => show win0_0.index t (0 : Fin 3) * 16 + 1 * (j 0).val = win0_3.index t (0 : Fin 3) * 16 + 1 * (j 0).val; omega
    | ⟨1, _⟩ => show win0_0.index t (1 : Fin 3) * 256 + 1 * (j 1).val = win0_3.index t (1 : Fin 3) * 256 + 1 * (j 1).val; omega
    | ⟨2, _⟩ => show win0_0.index t (2 : Fin 3) * 512 + 1 * (j 2).val = win0_3.index t (2 : Fin 3) * 512 + 1 * (j 2).val; omega
  have h1 : ((cfg0.win 1).blk t).view.emb (Value.ix3_1 j) = rowOf (((cfg0.win 3).blk t).view.emb j) := by
    funext a; apply Fin.ext
    match a with
    | ⟨0, _⟩ => show win0_1.index t (0 : Fin 2) * 256 + 1 * (j 1).val = win0_3.index t (1 : Fin 3) * 256 + 1 * (j 1).val; omega
    | ⟨1, _⟩ => show win0_1.index t (1 : Fin 2) * 1 + 1 * 0 = 0; omega
  have h2 : ((cfg0.win 2).blk t).view.emb (Value.ix3_2 j) = rowOf (((cfg0.win 3).blk t).view.emb j) := by
    funext a; apply Fin.ext
    match a with
    | ⟨0, _⟩ => show win0_2.index t (0 : Fin 2) * 256 + 1 * (j 1).val = win0_3.index t (1 : Fin 3) * 256 + 1 * (j 1).val; omega
    | ⟨1, _⟩ => show win0_2.index t (1 : Fin 2) * 1 + 1 * 0 = 0; omega
  rw [h0, h1, h2]

/-- Point `t` writes back block `t` of `affine` of the three staged arrays as the region finds them. -/
theorem flushed_eq (c : Dev nD) (t : Fin cfg0.N) :
    (dats m 0 c).flushed 3 t = ((cfg0.win 3).blk t).view.read (Elt F)
      (affine (V m c main_arg0) (V m c main_v56) (V m c main_v57)) := by
  rw [Value.flushed3, block_eq]
  exact blocks_eq (V m c main_arg0) (V m c main_v56) (V m c main_v57) t

/-! ## The blocks tile the array -/

/-- An index of the array is in point `t`'s output block iff each coordinate is in the block's range on its axis. -/
theorem mem_blk (t : Fin cfg0.N) (i : S64x2048x512.Idx) :
    i ∈ ((cfg0.win 3).blk t).view.set ↔ ∀ a : Fin 3, win0_3.index t a * S16x256x512.size a ≤ (i a).val
      ∧ (i a).val < win0_3.index t a * S16x256x512.size a + S16x256x512.size a := by
  show i ∈ ((View.whole main_v58).slice (win0_3.rect t)).set ↔ _
  rw [View.set_slice_whole, Rect.mem_set_unit]
  exact Iff.rfl

/-- Every index is in some point's output block: index `(i 0, i 1, i 2)` is in block `(i 0 / 16, i 1 / 256, 0)`. -/
theorem cover (i : S64x2048x512.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 512 := (i 2).isLt
  obtain ⟨t, ht⟩ := idx_onto ⟨(i 0).val / 16, by omega⟩ ⟨(i 1).val / 256, by omega⟩
  have q0 : win0_3.index t (0 : Fin 3) = (i 0).val / 16 := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 256 ≤ (i 1).val ∧ (i 1).val < win0_3.index t (1 : Fin 3) * 256 + 256; omega
  | ⟨2, _⟩ => show win0_3.index t (2 : Fin 3) * 512 ≤ (i 2).val ∧ (i 2).val < win0_3.index t (2 : Fin 3) * 512 + 512; omega

/-! ## The array after the run -/

/-- The output array after the last point is `affine` of the three staged arrays as the region finds them. -/
theorem final (c : Dev nD) :
    (dats m 0 c).arrAt 3 cfg0.N = affine (V m c main_arg0) (V m c main_v56) (V m c main_v57) :=
  (dats m 0 c).arrAt_eq_of_cover 3 (affine (V m c main_arg0) (V m c main_v56) (V m c main_v57))
    (fun t _ => flushed_eq m c t) cover

/-! ## The run, read -/

/-- Every run of the program from launch memory `m` ends with the output array at `affine` of the first argument as
    launched and of the two [2048,1] arrays the host operations before the region computed, the arguments unchanged. -/
theorem run : θ_run defs (onTc (τ := τ) (main (F := F))) ⟨m, fun _ => 0, ρ⟩ fun r => ∀ c : Dev nD,
      r.2.mem ((c : Thread nD τ).loc main_v58)
        = affine (m ((c : Thread nD τ).loc main_arg0)) (V m c main_v56) (V m c main_v57)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by rw [V_main_arg0])), (h c).2⟩)
    (Value.run_blocks m ρ)

end Cert.KernelIdeal.Arr

end
-- ==== Proof.Stats.lean ====
/-
  The statistics both programs compute on the host before they touch the big array, as pure functions of the five
  argument arrays, one definition per stage.

  From the last time step of every series (a [64, 2048] matrix) the column mean and the column variance of the
  batch are merged, by Welford's parallel formula, with the running mean, sum of squared deviations and count
  gathered per column: `tot` is the merged count c + 64, `mm` the merged mean m + δ·(64 / tot), and `rad` the
  radicand var + ε of the merged standard deviation, var = (M₂ + 64·var_new + δ²·c·64 / tot) / tot. The batch
  variance enters `rad` as a parameter, because it comes in two spellings: as the called variance function with
  its guard on the divisor 64 − ddof (`varCall`), and as the plain mean of squared deviations (`varPlain`).
  The two programs then differ only in how they use these columns: `shiftCol` / `scaleCol` are what the kernel
  stages, `refOut` is the reference's whole result.
-/
import proofs.«102394_j40862318854702_2_alg».proof.Proof.Gen.KernelIdeal
import Idealize.ShloMosaic.PureOps.Ideal

noncomputable section

namespace Cert.Norm

open Idealize.ShloMosaic Cert.KernelIdeal Cert.KernelIdeal.Facts₀

variable {F : FTy → Type} [FloatOps F]

/-- A scalar constant spread over a column vector. -/
def splat (w : BitVec 32) : FVec F S2048 .f32 := broadcastInDim S2048 ![] bcast_S_S2048 (constant S_ .f32 w)

/-- The last time step of every series: element (b, n) is values[b, n, 511]. -/
def lastStep (a0 : FVec F S64x2048x512 .f32) : FVec F S64x2048 .f32 :=
  shapeCast S64x2048 (extractStridedSlice S64x2048x1 ![0, 0, 511] a0 slices_S64x2048x512_S64x2048x1_0_0_511) shapeCasts_S64x2048x1_S64x2048

/-- The sum over the batch of a [64, 2048] matrix, column by column. -/
def colSum (v : FVec F S64x2048 .f32) : FVec F S2048 .f32 :=
  Host.reduceAdd v (constant S_ .f32 0x00000000#32) reducesTo_S64x2048_S2048_d0 h_S_

/-- The batch mean of each column. -/
def meanNew (v : FVec F S64x2048 .f32) : FVec F S2048 .f32 := Host.divf (colSum v) (splat 0x42800000#32)

/-- The sum over the batch of the squared deviations from the column mean (the mean kept as a [1, 2048] row). -/
def sqDev (v : FVec F S64x2048 .f32) : FVec F S2048 .f32 :=
  let d : FVec F S64x2048 .f32 := subf v (broadcastInDim S64x2048 ![0, 1] bcast_S1x2048_S64x2048_0_1
    (Host.divf (broadcastInDim S1x2048 ![1] bcast_S2048_S1x2048_1 (colSum v))
      (broadcastInDim S1x2048 ![] bcast_S_S1x2048 (constant S_ .f32 0x42800000#32))))
  colSum (mulf d d)

/-- The divisor of the called variance: 64 − ddof, the ddof an integer zero converted. -/
def varDivisor : FVec F S_ .f32 := subf (constant S_ .f32 0x42800000#32) (sitofp .f32 (constantI S_ 32 0#32))

/-- The batch variance as the called function computes it: the squared deviations over 64 − ddof where that divisor is
    positive, the not-a-number word elsewhere. -/
def varCall (v : FVec F S64x2048 .f32) : FVec F S2048 .f32 :=
  select (broadcastInDim S2048 ![] bcast_S_S2048 (cmpf .ogt (varDivisor (F := F)) (constant S_ .f32 0x00000000#32)))
    (Host.divf (sqDev v) (broadcastInDim S2048 ![] bcast_S_S2048 (varDivisor (F := F))))
    (broadcastInDim S2048 ![] bcast_S_S2048 (id (constant S_ .f32 0x7FC00000#32)))

/-- The batch variance spelt plainly: the squared deviations over 64. -/
def varPlain (v : FVec F S64x2048 .f32) : FVec F S2048 .f32 := Host.divf (sqDev v) (splat 0x42800000#32)

/-- The gather positions: a negative index counts from the end (2048 is added to it), as one column of indices. -/
def gatherPos (a4 : IVec S2048 32) : IVec S2048x1 32 :=
  broadcastInDim S2048x1 ![0] bcast_S2048_S2048x1_0
    (select (cmpi .slt a4 (broadcastInDim S2048 ![] bcast_S_S2048 (constantI S_ 32 0#32)))
      (addi a4 (broadcastInDim S2048 ![] bcast_S_S2048 (constantI S_ 32 2048#32))) a4)

/-- The running count of each column's signature, as a float. -/
def cnt (a3 a4 : IVec S2048 32) : FVec F S2048 .f32 :=
  sitofp .f32 (Host.gather gather_S2048_S2048x1_S2048_n_0_n_n_0_1_1 a3 (gatherPos a4))

/-- A float statistic gathered per column. -/
def gathered (a : FVec F S2048 .f32) (a4 : IVec S2048 32) : FVec F S2048 .f32 :=
  Host.gather gather_S2048_S2048x1_S2048_n_0_n_n_0_1_1 a (gatherPos a4)

/-- The merged count c + 64. -/
def tot (a3 a4 : IVec S2048 32) : FVec F S2048 .f32 := addf (cnt a3 a4) (splat 0x42800000#32)

/-- The difference δ between the batch mean and the running mean. -/
def delta (a0 : FVec F S64x2048x512 .f32) (a1 : FVec F S2048 .f32) (a4 : IVec S2048 32) : FVec F S2048 .f32 :=
  subf (meanNew (lastStep a0)) (gathered a1 a4)

/-- The merged mean m + δ·(64 / tot). -/
def mm (a0 : FVec F S64x2048x512 .f32) (a1 : FVec F S2048 .f32) (a3 a4 : IVec S2048 32) : FVec F S2048 .f32 :=
  addf (gathered a1 a4) (mulf (delta a0 a1 a4) (Host.divf (splat 0x42800000#32) (tot a3 a4)))

/-- The radicand var + ε of the merged standard deviation, for a given batch variance `vn`:
    var = (M₂ + vn·64 + δ·δ·c·64 / tot) / tot. -/
def rad (vn : FVec F S2048 .f32) (a0 : FVec F S64x2048x512 .f32) (a1 a2 : FVec F S2048 .f32) (a3 a4 : IVec S2048 32) : FVec F S2048 .f32 :=
  addf (Host.divf (addf (addf (gathered a2 a4) (mulf vn (splat 0x42800000#32)))
      (Host.divf (mulf (mulf (mulf (delta a0 a1 a4) (delta a0 a1 a4)) (cnt a3 a4)) (splat 0x42800000#32)) (tot a3 a4))) (tot a3 a4))
    (splat 0x322BCC77#32)

/-- Which columns are normalized: those whose merged count is at least 2. -/
def okCol (a3 a4 : IVec S2048 32) : IVec S2048 1 := cmpf .oge (tot (F := F) a3 a4) (splat 0x40000000#32)

/-- The kernel's staged shift column: the merged mean on a normalized column, zero elsewhere. -/
def shiftCol (ok : IVec S2048 1) (mean : FVec F S2048 .f32) : FVec F S2048x1 .f32 :=
  shapeCast S2048x1 (select ok mean (splat 0x00000000#32)) shapeCasts_S2048_S2048x1

/-- The kernel's staged scale column: one over the standard deviation on a normalized column, one over one elsewhere. -/
def scaleCol (ok : IVec S2048 1) (std : FVec F S2048 .f32) : FVec F S2048x1 .f32 :=
  shapeCast S2048x1 (Host.divf (splat 0x3F800000#32) (select ok std (splat 0x3F800000#32))) shapeCasts_S2048_S2048x1

end Cert.Norm

end
-- ==== Proof.LibHostLine.lean ====
/-
  A fact about the operations of a called function in a straight line of host operations.

  Such an operation carries its operands from their buffers' types to the values' types and its result back, along the
  equation between the two types. Carrying a value to a buffer's own type and back is the identity, whatever the buffer:
  with it the chain of intermediate values of a called function reads as the plain composition of its operations.
-/
import Idealize.ShloMosaic.Lib.StableHlo.Run

noncomputable section

namespace Cert.LibHostLine

open Idealize.ShloMosaic Idealize.ShloMosaic.StableHlo

variable {sig : RefSig} {Val : EltTy → Type}

/-- Contents carried to a buffer's own type and back are themselves. -/
theorem ofBuf_toBuf {T : BufTy} (x : TRef sig T) (v : T.Contents Val) : x.ofBuf (x.toBuf v) = v := by
  obtain ⟨r, rfl, _, _⟩ := x; rfl

end Cert.LibHostLine

end
-- ==== Proof.KernelCols.lean ====
/-
  What the kernel's two small windows stage. Before the one launch the host computes, column by column, the merged
  mean and the merged standard deviation, and keeps them only on the columns whose merged count reaches 2: the
  shift column is the mean there and 0 elsewhere, the scale column 1 / std there and 1 / 1 elsewhere. Read back
  from the host operations, both are the definitions of the statistics module at the launch contents of the arguments.
-/
import proofs.«102394_j40862318854702_2_alg».proof.Proof.Gen.KernelIdeal.Frame
import proofs.«102394_j40862318854702_2_alg».proof.Proof.Stats
import proofs.«102394_j40862318854702_2_alg».proof.Proof.LibHostLine
import Idealize.ShloMosaic.Lib.StableHlo.Run

noncomputable section

namespace Cert.KernelIdeal.Cols

open Cert.KernelIdeal Cert.KernelIdeal.Gen Idealize.ShloMosaic Idealize.ShloMosaic.TcCoe Idealize.SL.Sem Idealize.ShloMosaic.StableHlo
open Cert.Norm

variable {F : FTy → Type} [FloatOps F]
variable (m : (ℓ : Loc nD τ sig) → Buf (Elt F) ℓ)

set_option maxHeartbeats 4000000 in
/-- The shift column as the region finds it. -/
theorem shift_eq (c : Dev nD) :
    (V m c main_v56 : S2048x1.Idx → F .f32)
      = shiftCol (okCol (F := F) (m ((c : Thread nD τ).loc main_arg3)) (m ((c : Thread nD τ).loc main_arg4)))
          (mm (m ((c : Thread nD τ).loc main_arg0)) (m ((c : Thread nD τ).loc main_arg1)) (m ((c : Thread nD τ).loc main_arg3)) (m ((c : Thread nD τ).loc main_arg4))) := by
  dsimp only [Gen.V]
  simp only [hostOps0, hostOps0_1, hostOps0_2, hostOps0_3, hostOps0_4, hostOps0_5, hostOps0_6, List.flatten_cons, List.flatten_nil,
    List.append_nil, List.cons_append, List.nil_append]
  after_results_simp
  first | rfl | (simp only [Cert.LibHostLine.ofBuf_toBuf]; rfl)

set_option maxHeartbeats 4000000 in
/-- The scale column as the region finds it: the standard deviation is the square root of the radicand with the batch
    variance as the called function computes it. -/
theorem scale_eq (c : Dev nD) :
    (V m c main_v57 : S2048x1.Idx → F .f32)
      = scaleCol (okCol (F := F) (m ((c : Thread nD τ).loc main_arg3)) (m ((c : Thread nD τ).loc main_arg4)))
          (Host.sqrt (rad (varCall (lastStep (m ((c : Thread nD τ).loc main_arg0)))) (m ((c : Thread nD τ).loc main_arg0))
            (m ((c : Thread nD τ).loc main_arg1)) (m ((c : Thread nD τ).loc main_arg2)) (m ((c : Thread nD τ).loc main_arg3)) (m ((c : Thread nD τ).loc main_arg4)))) := by
  dsimp only [Gen.V]
  simp only [hostOps0, hostOps0_1, hostOps0_2, hostOps0_3, hostOps0_4, hostOps0_5, hostOps0_6, List.flatten_cons, List.flatten_nil,
    List.append_nil, List.cons_append, List.nil_append]
  after_results_simp
  first | rfl | (simp only [Cert.LibHostLine.ofBuf_toBuf]; rfl)

end Cert.KernelIdeal.Cols

end
-- ==== Proof.RefRun.lean ====
/-
  The reference program as a straight line of array operations, and what its buffers hold at the end.

  The reference is a host-only program: 74 statements, three of them calls of helper functions (the
  unbiased-variance helper, which itself calls a select helper, and a second select helper at the end). A call
  runs the callee's body on the caller's operands, every value of the body in a buffer of its own, so the whole
  program is one line of 95 operations: 8 of the entry function, the 22 of the variance helper with its select
  written in place, 51 more of the entry function, then the last 12 of the entry function and the 2 of the
  final select. `ops` is that line; `main_eq` says the program is exactly it; `run_raw` says that every weakly
  fair execution ends, with every buffer at the fold of the operations' results over the launch contents; and
  the five argument arrays, which no operation writes, end as they were launched (`kept_arg0` … `kept_arg4`).
-/
import proofs.«102394_j40862318854702_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 95 operations in program order.
    1–8: the last lane of the input as a [64, 2048] array, its sum over the batch axis divided by 64 (the batch
    mean `v4`), and the integer 0 that the variance helper takes as its degrees-of-freedom correction.
    9–30: the variance helper over the same array — the mean again, the centred squares, their sum over the
    batch axis divided by 64 − 0, and the select that keeps that quotient when the divisor is positive and is
    NaN otherwise (`v5`).
    31–81: the batch second moment 64 · `v5`; the running count, mean and second moment gathered at the signal
    indices, a negative index first wrapped by 2048; and the merge of batch and running statistics — the
    merged count `v32` = count + 64, the merged mean `v36` = mean + δ · 64 / `v32` with δ the batch mean minus
    the running mean, the merged variance `v44` = (M2 + batch M2 + δ² · count · 64 / `v32`) / `v32`, and the f32
    constant nearest 1e-8 broadcast (`v45`).
    82–83: `v46` = `v44` + `v45` and its square root `v47`.
    84–93: `v36` and `v47` broadcast over the whole array, (x − `v36`) / `v47` (`v53`), and the mask
    `v32` ≥ 2 (`v55`) as a [1, 2048, 1] array.
    94–95: the mask broadcast over the whole array and the select between `v53` and the input itself. -/
abbrev ops : List (HloOp τ sig (Elt F)) :=
  ( StableHlo.unary main_arg0 main_v0 ((extractStridedSlice S64x2048x1 ![0, 0, 511] · slices_S64x2048x512_S64x2048x1_0_0_511) : (⟨S64x2048x512, .f32⟩ : BufTy).Contents (Elt F) → (⟨S64x2048x1, .f32⟩ : BufTy).Contents (Elt F))
  :: StableHlo.reshape main_v0 main_v1 rfl shapeCasts_S64x2048x1_S64x2048
  :: StableHlo.nullary main_cst (constant S_ .f32 0x00000000#32)
  :: StableHlo.binary main_v1 main_cst main_v2 ((fun x v => Host.reduceAdd x v reducesTo_S64x2048_S2048_d0 h_S_) : (⟨S64x2048, .f32⟩ : BufTy).Contents (Elt F) → (⟨S_, .f32⟩ : BufTy).Contents (Elt F) → (⟨S2048, .f32⟩ : BufTy).Contents (Elt F))
  :: StableHlo.nullary main_cst_0 (constant S_ .f32 0x42800000#32)
  :: StableHlo.unary main_cst_0 main_v3 (broadcastInDim S2048 ![] bcast_S_S2048 : (⟨S_, .f32⟩ : BufTy).Contents (Elt F) → (⟨S2048, .f32⟩ : BufTy).Contents (Elt F))
  :: StableHlo.binary main_v2 main_v3 main_v4 (Host.divf : (⟨S2048, .f32⟩ : BufTy).Contents (Elt F) → (⟨S2048, .f32⟩ : BufTy).Contents (Elt F) → (⟨S2048, .f32⟩ : BufTy).Contents (Elt F))
  :: StableHlo.nullary main_c (constantI S_ 32 0#32)
  :: StableHlo.TRef.nullary (.of main_call0_cst : StableHlo.TRef sig ⟨S_, .f32⟩) (constant S_ .f32 0x00000000#32)
  :: StableHlo.TRef.binary (.of main_v1 : StableHlo.TRef sig ⟨S64x2048, .f32⟩) (.of main_call0_cst : StableHlo.TRef sig ⟨S_, .f32⟩) (.of main_call0_v0 : StableHlo.TRef sig ⟨S2048, .f32⟩) (fun x v => Host.reduceAdd x v reducesTo_S64x2048_S2048_d0 h_S_)
  :: StableHlo.TRef.unary (.of main_call0_v0 : StableHlo.TRef sig ⟨S2048, .f32⟩) (.of main_call0_v1 : StableHlo.TRef sig ⟨S1x2048, .f32⟩) (broadcastInDim S1x2048 ![1] bcast_S2048_S1x2048_1)
  :: StableHlo.TRef.nullary (.of main_call0_cst_0 : StableHlo.TRef sig ⟨S_, .f32⟩) (constant S_ .f32 0x42800000#32)
  :: StableHlo.TRef.unary (.of main_call0_cst_0 : StableHlo.TRef sig ⟨S_, .f32⟩) (.of main_call0_v2 : StableHlo.TRef sig ⟨S1x2048, .f32⟩) (broadcastInDim S1x2048 ![] bcast_S_S1x2048)
  :: StableHlo.TRef.binary (.of main_call0_v1 : StableHlo.TRef sig ⟨S1x2048, .f32⟩) (.of main_call0_v2 : StableHlo.TRef sig ⟨S1x2048, .f32⟩) (.of main_call0_v3 : StableHlo.TRef sig ⟨S1x2048, .f32⟩) Host.divf
  :: StableHlo.TRef.unary (.of main_call0_v3 : StableHlo.TRef sig ⟨S1x2048, .f32⟩) (.of main_call0_v4 : StableHlo.TRef sig ⟨S64x2048, .f32⟩) (broadcastInDim S64x2048 ![0, 1] bcast_S1x2048_S64x2048_0_1)
  :: StableHlo.TRef.binary (.of main_v1 : StableHlo.TRef sig ⟨S64x2048, .f32⟩) (.of main_call0_v4 : StableHlo.TRef sig ⟨S64x2048, .f32⟩) (.of main_call0_v5 : StableHlo.TRef sig ⟨S64x2048, .f32⟩) subf
  :: StableHlo.TRef.binary (.of main_call0_v5 : StableHlo.TRef sig ⟨S64x2048, .f32⟩) (.of main_call0_v5 : StableHlo.TRef sig ⟨S64x2048, .f32⟩) (.of main_call0_v6 : StableHlo.TRef sig ⟨S64x2048, .f32⟩) mulf
  :: StableHlo.TRef.unary (.of main_c : StableHlo.TRef sig ⟨S_, .i32⟩) (.of main_call0_v7 : StableHlo.TRef sig ⟨S_, .f32⟩) (sitofp .f32)
  :: StableHlo.TRef.nullary (.of main_call0_cst_1 : StableHlo.TRef sig ⟨S_, .f32⟩) (constant S_ .f32 0x42800000#32)
  :: StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf
  :: StableHlo.TRef.nullary (.of main_call0_cst_2 : StableHlo.TRef sig ⟨S_, .f32⟩) (constant S_ .f32 0x00000000#32)
  :: StableHlo.TRef.binary (.of main_call0_v6 : StableHlo.TRef sig ⟨S64x2048, .f32⟩) (.of main_call0_cst_2 : StableHlo.TRef sig ⟨S_, .f32⟩) (.of main_call0_v9 : StableHlo.TRef sig ⟨S2048, .f32⟩) (fun x v => Host.reduceAdd x v reducesTo_S64x2048_S2048_d0 h_S_)
  :: StableHlo.TRef.unary (.of main_call0_v8 : StableHlo.TRef sig ⟨S_, .f32⟩) (.of main_call0_v10 : StableHlo.TRef sig ⟨S2048, .f32⟩) (broadcastInDim S2048 ![] bcast_S_S2048)
  :: StableHlo.TRef.binary (.of main_call0_v9 : StableHlo.TRef sig ⟨S2048, .f32⟩) (.of main_call0_v10 : StableHlo.TRef sig ⟨S2048, .f32⟩) (.of main_call0_v11 : StableHlo.TRef sig ⟨S2048, .f32⟩) Host.divf
  :: StableHlo.TRef.nullary (.of main_call0_cst_3 : StableHlo.TRef sig ⟨S_, .f32⟩) (constant S_ .f32 0x00000000#32)
  :: StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt)
  :: StableHlo.TRef.nullary (.of main_call0_cst_4 : StableHlo.TRef sig ⟨S_, .f32⟩) (constant S_ .f32 0x7FC00000#32)
  :: StableHlo.TRef.unary (.of main_call0_cst_4 : StableHlo.TRef sig ⟨S_, .f32⟩) (.of main_call0_call0_v0 : StableHlo.TRef sig ⟨S_, .f32⟩) id
  :: StableHlo.TRef.unary (.of main_call0_call0_v0 : StableHlo.TRef sig ⟨S_, .f32⟩) (.of main_call0_call0_v1 : StableHlo.TRef sig ⟨S2048, .f32⟩) (broadcastInDim S2048 ![] bcast_S_S2048)
  :: StableHlo.TRef.ternary (.of main_call0_v12 : StableHlo.TRef sig ⟨S_, .i1⟩) (.of main_call0_v11 : StableHlo.TRef sig ⟨S2048, .f32⟩) (.of main_call0_call0_v1 : StableHlo.TRef sig ⟨S2048, .f32⟩) (.of main_v5 : StableHlo.TRef sig ⟨S2048, .f32⟩) (fun p a b => select (broadcastInDim S2048 ![] bcast_S_S2048 p) a b)
  :: StableHlo.nullary main_cst_1 (constant S_ .f32 0x42800000#32)
  :: StableHlo.unary main_cst_1 main_v6 (broadcastInDim S2048 ![] bcast_S_S2048 : (⟨S_, .f32⟩ : BufTy).Contents (Elt F) → (⟨S2048, .f32⟩ : BufTy).Contents (Elt F))
  :: StableHlo.binary main_v5 main_v6 main_v7 (mulf : (⟨S2048, .f32⟩ : BufTy).Contents (Elt F) → (⟨S2048, .f32⟩ : BufTy).Contents (Elt F) → (⟨S2048, .f32⟩ : BufTy).Contents (Elt F))
  :: StableHlo.nullary main_c_2 (constantI S_ 32 0#32)
  :: StableHlo.unary main_c_2 main_v8 (broadcastInDim S2048 ![] bcast_S_S2048 : (⟨S_, .i32⟩ : BufTy).Contents (Elt F) → (⟨S2048, .i32⟩ : BufTy).Contents (Elt F))
  :: StableHlo.binary main_arg4 main_v8 main_v9 (cmpi .slt : (⟨S2048, .i32⟩ : BufTy).Contents (Elt F) → (⟨S2048, .i32⟩ : BufTy).Contents (Elt F) → (⟨S2048, .i1⟩ : BufTy).Contents (Elt F))
  :: StableHlo.nullary main_c_3 (constantI S_ 32 2048#32)
  :: StableHlo.unary main_c_3 main_v10 (broadcastInDim S2048 ![] bcast_S_S2048 : (⟨S_, .i32⟩ : BufTy).Contents (Elt F) → (⟨S2048, .i32⟩ : BufTy).Contents (Elt F))
  :: StableHlo.binary main_arg4 main_v10 main_v11 (addi : (⟨S2048, .i32⟩ : BufTy).Contents (Elt F) → (⟨S2048, .i32⟩ : BufTy).Contents (Elt F) → (⟨S2048, .i32⟩ : BufTy).Contents (Elt F))
  :: StableHlo.ternary main_v9 main_v11 main_arg4 main_v12 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v12 main_v13 (broadcastInDim S2048x1 ![0] bcast_S2048_S2048x1_0 : (⟨S2048, .i32⟩ : BufTy).Contents (Elt F) → (⟨S2048x1, .i32⟩ : BufTy).Contents (Elt F))
  :: StableHlo.binary main_arg3 main_v13 main_v14 ((fun x i => Host.gather gather_S2048_S2048x1_S2048_n_0_n_n_0_1_1 x i) : (⟨S2048, .i32⟩ : BufTy).Contents (Elt F) → (⟨S2048x1, .i32⟩ : BufTy).Contents (Elt F) → (⟨S2048, .i32⟩ : BufTy).Contents (Elt F))
  :: StableHlo.unary main_v14 main_v15 (sitofp .f32 : (⟨S2048, .i32⟩ : BufTy).Contents (Elt F) → (⟨S2048, .f32⟩ : BufTy).Contents (Elt F))
  :: StableHlo.nullary main_c_4 (constantI S_ 32 0#32)
  :: StableHlo.unary main_c_4 main_v16 (broadcastInDim S2048 ![] bcast_S_S2048 : (⟨S_, .i32⟩ : BufTy).Contents (Elt F) → (⟨S2048, .i32⟩ : BufTy).Contents (Elt F))
  :: StableHlo.binary main_arg4 main_v16 main_v17 (cmpi .slt : (⟨S2048, .i32⟩ : BufTy).Contents (Elt F) → (⟨S2048, .i32⟩ : BufTy).Contents (Elt F) → (⟨S2048, .i1⟩ : BufTy).Contents (Elt F))
  :: StableHlo.nullary main_c_5 (constantI S_ 32 2048#32)
  :: StableHlo.unary main_c_5 main_v18 (broadcastInDim S2048 ![] bcast_S_S2048 : (⟨S_, .i32⟩ : BufTy).Contents (Elt F) → (⟨S2048, .i32⟩ : BufTy).Contents (Elt F))
  :: StableHlo.binary main_arg4 main_v18 main_v19 (addi : (⟨S2048, .i32⟩ : BufTy).Contents (Elt F) → (⟨S2048, .i32⟩ : BufTy).Contents (Elt F) → (⟨S2048, .i32⟩ : BufTy).Contents (Elt F))
  :: StableHlo.ternary main_v17 main_v19 main_arg4 main_v20 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v20 main_v21 (broadcastInDim S2048x1 ![0] bcast_S2048_S2048x1_0 : (⟨S2048, .i32⟩ : BufTy).Contents (Elt F) → (⟨S2048x1, .i32⟩ : BufTy).Contents (Elt F))
  :: StableHlo.binary main_arg1 main_v21 main_v22 ((fun x i => Host.gather gather_S2048_S2048x1_S2048_n_0_n_n_0_1_1 x i) : (⟨S2048, .f32⟩ : BufTy).Contents (Elt F) → (⟨S2048x1, .i32⟩ : BufTy).Contents (Elt F) → (⟨S2048, .f32⟩ : BufTy).Contents (Elt F))
  :: StableHlo.nullary main_c_6 (constantI S_ 32 0#32)
  :: StableHlo.unary main_c_6 main_v23 (broadcastInDim S2048 ![] bcast_S_S2048 : (⟨S_, .i32⟩ : BufTy).Contents (Elt F) → (⟨S2048, .i32⟩ : BufTy).Contents (Elt F))
  :: StableHlo.binary main_arg4 main_v23 main_v24 (cmpi .slt : (⟨S2048, .i32⟩ : BufTy).Contents (Elt F) → (⟨S2048, .i32⟩ : BufTy).Contents (Elt F) → (⟨S2048, .i1⟩ : BufTy).Contents (Elt F))
  :: StableHlo.nullary main_c_7 (constantI S_ 32 2048#32)
  :: StableHlo.unary main_c_7 main_v25 (broadcastInDim S2048 ![] bcast_S_S2048 : (⟨S_, .i32⟩ : BufTy).Contents (Elt F) → (⟨S2048, .i32⟩ : BufTy).Contents (Elt F))
  :: StableHlo.binary main_arg4 main_v25 main_v26 (addi : (⟨S2048, .i32⟩ : BufTy).Contents (Elt F) → (⟨S2048, .i32⟩ : BufTy).Contents (Elt F) → (⟨S2048, .i32⟩ : BufTy).Contents (Elt F))
  :: StableHlo.ternary main_v24 main_v26 main_arg4 main_v27 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v27 main_v28 (broadcastInDim S2048x1 ![0] bcast_S2048_S2048x1_0 : (⟨S2048, .i32⟩ : BufTy).Contents (Elt F) → (⟨S2048x1, .i32⟩ : BufTy).Contents (Elt F))
  :: StableHlo.binary main_arg2 main_v28 main_v29 ((fun x i => Host.gather gather_S2048_S2048x1_S2048_n_0_n_n_0_1_1 x i) : (⟨S2048, .f32⟩ : BufTy).Contents (Elt F) → (⟨S2048x1, .i32⟩ : BufTy).Contents (Elt F) → (⟨S2048, .f32⟩ : BufTy).Contents (Elt F))
  :: StableHlo.binary main_v4 main_v22 main_v30 (subf : (⟨S2048, .f32⟩ : BufTy).Contents (Elt F) → (⟨S2048, .f32⟩ : BufTy).Contents (Elt F) → (⟨S2048, .f32⟩ : BufTy).Contents (Elt F))
  :: StableHlo.nullary main_cst_8 (constant S_ .f32 0x42800000#32)
  :: StableHlo.unary main_cst_8 main_v31 (broadcastInDim S2048 ![] bcast_S_S2048 : (⟨S_, .f32⟩ : BufTy).Contents (Elt F) → (⟨S2048, .f32⟩ : BufTy).Contents (Elt F))
  :: StableHlo.binary main_v15 main_v31 main_v32 (addf : (⟨S2048, .f32⟩ : BufTy).Contents (Elt F) → (⟨S2048, .f32⟩ : BufTy).Contents (Elt F) → (⟨S2048, .f32⟩ : BufTy).Contents (Elt F))
  :: StableHlo.nullary main_cst_9 (constant S_ .f32 0x42800000#32)
  :: StableHlo.unary main_cst_9 main_v33 (broadcastInDim S2048 ![] bcast_S_S2048 : (⟨S_, .f32⟩ : BufTy).Contents (Elt F) → (⟨S2048, .f32⟩ : BufTy).Contents (Elt F))
  :: StableHlo.binary main_v33 main_v32 main_v34 (Host.divf : (⟨S2048, .f32⟩ : BufTy).Contents (Elt F) → (⟨S2048, .f32⟩ : BufTy).Contents (Elt F) → (⟨S2048, .f32⟩ : BufTy).Contents (Elt F))
  :: StableHlo.binary main_v30 main_v34 main_v35 (mulf : (⟨S2048, .f32⟩ : BufTy).Contents (Elt F) → (⟨S2048, .f32⟩ : BufTy).Contents (Elt F) → (⟨S2048, .f32⟩ : BufTy).Contents (Elt F))
  :: StableHlo.binary main_v22 main_v35 main_v36 (addf : (⟨S2048, .f32⟩ : BufTy).Contents (Elt F) → (⟨S2048, .f32⟩ : BufTy).Contents (Elt F) → (⟨S2048, .f32⟩ : BufTy).Contents (Elt F))
  :: StableHlo.binary main_v29 main_v7 main_v37 (addf : (⟨S2048, .f32⟩ : BufTy).Contents (Elt F) → (⟨S2048, .f32⟩ : BufTy).Contents (Elt F) → (⟨S2048, .f32⟩ : BufTy).Contents (Elt F))
  :: StableHlo.binary main_v30 main_v30 main_v38 (mulf : (⟨S2048, .f32⟩ : BufTy).Contents (Elt F) → (⟨S2048, .f32⟩ : BufTy).Contents (Elt F) → (⟨S2048, .f32⟩ : BufTy).Contents (Elt F))
  :: StableHlo.binary main_v38 main_v15 main_v39 (mulf : (⟨S2048, .f32⟩ : BufTy).Contents (Elt F) → (⟨S2048, .f32⟩ : BufTy).Contents (Elt F) → (⟨S2048, .f32⟩ : BufTy).Contents (Elt F))
  :: StableHlo.nullary main_cst_10 (constant S_ .f32 0x42800000#32)
  :: StableHlo.unary main_cst_10 main_v40 (broadcastInDim S2048 ![] bcast_S_S2048 : (⟨S_, .f32⟩ : BufTy).Contents (Elt F) → (⟨S2048, .f32⟩ : BufTy).Contents (Elt F))
  :: StableHlo.binary main_v39 main_v40 main_v41 (mulf : (⟨S2048, .f32⟩ : BufTy).Contents (Elt F) → (⟨S2048, .f32⟩ : BufTy).Contents (Elt F) → (⟨S2048, .f32⟩ : BufTy).Contents (Elt F))
  :: StableHlo.binary main_v41 main_v32 main_v42 (Host.divf : (⟨S2048, .f32⟩ : BufTy).Contents (Elt F) → (⟨S2048, .f32⟩ : BufTy).Contents (Elt F) → (⟨S2048, .f32⟩ : BufTy).Contents (Elt F))
  :: StableHlo.binary main_v37 main_v42 main_v43 (addf : (⟨S2048, .f32⟩ : BufTy).Contents (Elt F) → (⟨S2048, .f32⟩ : BufTy).Contents (Elt F) → (⟨S2048, .f32⟩ : BufTy).Contents (Elt F))
  :: StableHlo.binary main_v43 main_v32 main_v44 (Host.divf : (⟨S2048, .f32⟩ : BufTy).Contents (Elt F) → (⟨S2048, .f32⟩ : BufTy).Contents (Elt F) → (⟨S2048, .f32⟩ : BufTy).Contents (Elt F))
  :: StableHlo.nullary main_cst_11 (constant S_ .f32 0x322BCC77#32)
  :: StableHlo.unary main_cst_11 main_v45 (broadcastInDim S2048 ![] bcast_S_S2048 : (⟨S_, .f32⟩ : BufTy).Contents (Elt F) → (⟨S2048, .f32⟩ : BufTy).Contents (Elt F))
  :: StableHlo.binary main_v44 main_v45 main_v46 (addf : (⟨S2048, .f32⟩ : BufTy).Contents (Elt F) → (⟨S2048, .f32⟩ : BufTy).Contents (Elt F) → (⟨S2048, .f32⟩ : BufTy).Contents (Elt F))
  :: StableHlo.unary main_v46 main_v47 (Host.sqrt : (⟨S2048, .f32⟩ : BufTy).Contents (Elt F) → (⟨S2048, .f32⟩ : BufTy).Contents (Elt F))
  :: StableHlo.unary main_v36 main_v48 (broadcastInDim S1x2048x1 ![1] bcast_S2048_S1x2048x1_1 : (⟨S2048, .f32⟩ : BufTy).Contents (Elt F) → (⟨S1x2048x1, .f32⟩ : BufTy).Contents (Elt F))
  :: StableHlo.unary main_v48 main_v49 (broadcastInDim S64x2048x512 ![0, 1, 2] bcast_S1x2048x1_S64x2048x512_0_1_2 : (⟨S1x2048x1, .f32⟩ : BufTy).Contents (Elt F) → (⟨S64x2048x512, .f32⟩ : BufTy).Contents (Elt F))
  :: StableHlo.binary main_arg0 main_v49 main_v50 (subf : (⟨S64x2048x512, .f32⟩ : BufTy).Contents (Elt F) → (⟨S64x2048x512, .f32⟩ : BufTy).Contents (Elt F) → (⟨S64x2048x512, .f32⟩ : BufTy).Contents (Elt F))
  :: StableHlo.unary main_v47 main_v51 (broadcastInDim S1x2048x1 ![1] bcast_S2048_S1x2048x1_1 : (⟨S2048, .f32⟩ : BufTy).Contents (Elt F) → (⟨S1x2048x1, .f32⟩ : BufTy).Contents (Elt F))
  :: StableHlo.unary main_v51 main_v52 (broadcastInDim S64x2048x512 ![0, 1, 2] bcast_S1x2048x1_S64x2048x512_0_1_2 : (⟨S1x2048x1, .f32⟩ : BufTy).Contents (Elt F) → (⟨S64x2048x512, .f32⟩ : BufTy).Contents (Elt F))
  :: StableHlo.binary main_v50 main_v52 main_v53 (Host.divf : (⟨S64x2048x512, .f32⟩ : BufTy).Contents (Elt F) → (⟨S64x2048x512, .f32⟩ : BufTy).Contents (Elt F) → (⟨S64x2048x512, .f32⟩ : BufTy).Contents (Elt F))
  :: StableHlo.nullary main_cst_12 (constant S_ .f32 0x40000000#32)
  :: StableHlo.unary main_cst_12 main_v54 (broadcastInDim S2048 ![] bcast_S_S2048 : (⟨S_, .f32⟩ : BufTy).Contents (Elt F) → (⟨S2048, .f32⟩ : BufTy).Contents (Elt F))
  :: StableHlo.binary main_v32 main_v54 main_v55 (cmpf .oge : (⟨S2048, .f32⟩ : BufTy).Contents (Elt F) → (⟨S2048, .f32⟩ : BufTy).Contents (Elt F) → (⟨S2048, .i1⟩ : BufTy).Contents (Elt F))
  :: StableHlo.unary main_v55 main_v56 (broadcastInDim S1x2048x1 ![1] bcast_S2048_S1x2048x1_1 : (⟨S2048, .i1⟩ : BufTy).Contents (Elt F) → (⟨S1x2048x1, .i1⟩ : BufTy).Contents (Elt F))
  :: StableHlo.TRef.unary (.of main_v56 : StableHlo.TRef sig ⟨S1x2048x1, .i1⟩) (.of main_call1_v0 : StableHlo.TRef sig ⟨S64x2048x512, .i1⟩) (broadcastInDim S64x2048x512 ![0, 1, 2] bcast_S1x2048x1_S64x2048x512_0_1_2)
  :: StableHlo.TRef.ternary (.of main_call1_v0 : StableHlo.TRef sig ⟨S64x2048x512, .i1⟩) (.of main_v53 : StableHlo.TRef sig ⟨S64x2048x512, .f32⟩) (.of main_arg0 : StableHlo.TRef sig ⟨S64x2048x512, .f32⟩) (.of main_v57 : StableHlo.TRef sig ⟨S64x2048x512, .f32⟩) select
  :: [] )

/-- The program is that line: unfolding the helpers at their calls leaves the same operations in the same
    order, and sequencing is associative. -/
theorem main_eq (c : Dev nD) : main (F := F) c = seq ops := by
  chain_rfl

/-- The program scopes no buffer … -/
theorem scopedRefs_eq : (Finset.univ.filter fun b : Ref sig .tc => b.isScoped) = ∅ := by decide
/-- … and no semaphore: every buffer is a tensor value, live from launch to the end. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., ternary_bufs_sub ..⟩

/-- On every device, for any float values, from any memory with zero counters: every weakly fair execution of
    the reference terminates, and each buffer ends at the fold of the 95 operations' results over what the
    device's buffers held at launch. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## The arguments are not written

Each operation writes its own result buffer and nothing else, and no result buffer is an argument. -/

/-- No operation of the line writes argument 0: after the line it holds what it held at launch. -/
theorem kept_arg0 (m : (ℓ : Loc nD τ sig) → Buf (Elt F) ℓ) (d : Dev nD) :
    after ops (launchContents m d) (Proc.devRef .tc main_arg0) = m ((d.tc : Thread nD τ).loc main_arg0) := by
  after_results_simp

/-- No operation of the line writes argument 1: after the line it holds what it held at launch. -/
theorem kept_arg1 (m : (ℓ : Loc nD τ sig) → Buf (Elt F) ℓ) (d : Dev nD) :
    after ops (launchContents m d) (Proc.devRef .tc main_arg1) = m ((d.tc : Thread nD τ).loc main_arg1) := by
  after_results_simp

/-- No operation of the line writes argument 2: after the line it holds what it held at launch. -/
theorem kept_arg2 (m : (ℓ : Loc nD τ sig) → Buf (Elt F) ℓ) (d : Dev nD) :
    after ops (launchContents m d) (Proc.devRef .tc main_arg2) = m ((d.tc : Thread nD τ).loc main_arg2) := by
  after_results_simp

/-- No operation of the line writes argument 3: after the line it holds what it held at launch. -/
theorem kept_arg3 (m : (ℓ : Loc nD τ sig) → Buf (Elt F) ℓ) (d : Dev nD) :
    after ops (launchContents m d) (Proc.devRef .tc main_arg3) = m ((d.tc : Thread nD τ).loc main_arg3) := by
  after_results_simp

/-- No operation of the line writes argument 4: after the line it holds what it held at launch. -/
theorem kept_arg4 (m : (ℓ : Loc nD τ sig) → Buf (Elt F) ℓ) (d : Dev nD) :
    after ops (launchContents m d) (Proc.devRef .tc main_arg4) = m ((d.tc : Thread nD τ).loc main_arg4) := by
  after_results_simp

end Cert.ReferenceIdeal.RefRun

end
-- ==== Proof.Law.lean ====
/-
  The arithmetic on the extended reals that joins the two programs, with no program in sight.

  On a normalized column the kernel multiplies the centred value by the reciprocal 1 / s of the standard deviation
  where the reference divides by s. With the quotient's conventions (a / s = a · s⁻¹ for s ≠ 0; a / 0 is ±∞ by the sign
  of a, and 0 / 0 is −∞) the two agree exactly when s ≠ 0: both are a · s⁻¹, for every extended real a. At s = 0 they
  differ (0 · (1 / 0) = 0 · ∞ = 0 against 0 / 0), which is why the radicand of s is required to be positive there.
  On a column that is passed through, the kernel computes (x − 0) · (1 / 1), which is x for every extended real x.
-/
import Idealize.ShloMosaic.PureOps.Ideal
import Idealize.ShloMosaic.Lib.ValueIdx

noncomputable section

namespace Cert.Norm.Law

open Idealize.ShloMosaic

/-- The all-zero word denotes 0. -/
theorem word_zero : Ideal.ofBits .f32 0x00000000#32 = 0 := by
  simp [Ideal.ofBits, Ideal.ieee]

/-- The word of 1.0 denotes 1. -/
theorem word_one : Ideal.ofBits .f32 0x3F800000#32 = 1 := by
  simp [Ideal.ofBits, Ideal.ieee, -EReal.coe_mul]; norm_num

/-- The word of 64.0 denotes 64. -/
theorem word_64 : Ideal.ofBits .f32 0x42800000#32 = ((64 : ℝ) : EReal) := by
  simp [Ideal.ofBits, Ideal.ieee, -EReal.coe_mul]; norm_num

/-- Dividing by a nonzero s is multiplying by the reciprocal 1 / s, for every extended real a. -/
theorem div_eq_mul_one_div (a s : EReal) (hs : s ≠ 0) : Ideal.div a s = a * Ideal.div 1 s := by
  unfold Ideal.div
  rw [if_neg hs, if_neg hs, one_mul]

/-- One over one is one. -/
theorem one_div_one : Ideal.div 1 1 = 1 := by
  unfold Ideal.div
  rw [if_neg one_ne_zero, one_mul]
  exact inv_one

/-- The square root of a positive extended real is not zero. -/
theorem sqrt_ne_zero_of_pos (r : EReal) (h : 0 < r) : Ideal.sqrt r ≠ 0 := by
  induction r using EReal.rec with
  | bot => exact absurd h (not_lt_bot)
  | top => rw [Ideal.sqrt_top]; exact EReal.top_ne_zero
  | coe r =>
    have hr : 0 < r := by exact_mod_cast h
    rw [Ideal.sqrt_coe, if_neg (not_lt.mpr hr.le)]
    exact_mod_cast (Real.sqrt_pos.mpr hr).ne'

/-- A decided proposition's one-bit word is 1 exactly when the proposition holds. -/
theorem ofBool_decide_eq_one (p : Prop) [Decidable p] : BitVec.ofBool (decide p) = 1#1 ↔ p := by
  by_cases h : p
  · rw [decide_eq_true h]; exact ⟨fun _ => h, fun _ => rfl⟩
  · rw [decide_eq_false h]; exact ⟨fun e => absurd e (by decide), fun hp => absurd hp h⟩

/-- The comparisons read back as the order's. -/
theorem cmp_oge_eq_one {x y : EReal} : Ideal.cmp .oge x y = 1#1 ↔ y ≤ x := ofBool_decide_eq_one _
theorem cmp_olt_eq_one {x y : EReal} : Ideal.cmp .olt x y = 1#1 ↔ x < y := ofBool_decide_eq_one _
theorem cmp_ogt_eq_one {x y : EReal} : Ideal.cmp .ogt x y = 1#1 ↔ y < x := ofBool_decide_eq_one _

/-- One entry of the result, both ways. `o` says whether the entry's column is normalized; where it is, the standard
    deviation is not zero. The kernel's affine form (shift and reciprocal scale selected per column) is the reference's
    selected quotient. -/
theorem entry (o : BitVec 1) (x mean std : EReal) (hstd : o = 1#1 → std ≠ 0) :
    (x - Scalar.select o mean (Ideal.ofBits .f32 0x00000000#32))
        * Ideal.div (Ideal.ofBits .f32 0x3F800000#32) (Scalar.select o std (Ideal.ofBits .f32 0x3F800000#32))
      = Scalar.select o (Ideal.div (x - mean) std) x := by
  rw [word_zero, word_one]
  rcases BitVec.eq_zero_or_eq_one o with h | h
  · subst h
    rw [ValueIdx.select_zero, ValueIdx.select_zero, ValueIdx.select_zero, one_div_one, sub_zero, mul_one]
  · subst h
    rw [ValueIdx.select_one, ValueIdx.select_one, ValueIdx.select_one]
    exact (div_eq_mul_one_div _ _ (hstd rfl)).symm

end Cert.Norm.Law

end
-- ==== Proof.RefSpec.lean ====
/-
  The two results at one entry. The reference spreads the column statistics over the whole [64, 2048, 512] array
  (a column vector becomes a [1, 2048, 1] array, then is repeated along the batch and along time) and selects,
  entry by entry, the quotient (x − mean) / std on a normalized column and x itself elsewhere; the kernel reads its
  two staged [2048, 1] columns at the entry's row. Here each of these is read at an index: an entry (b, n, h) sees
  the statistics of column n and nothing else.
-/
import proofs.«102394_j40862318854702_2_alg».proof.Proof.Gen.ReferenceIdeal
import proofs.«102394_j40862318854702_2_alg».proof.Proof.Stats
import proofs.«102394_j40862318854702_2_alg».proof.Proof.Law
import Idealize.ShloMosaic.Lib.Pipeline.Value
import Idealize.ShloMosaic.Lib.ValueIdx

noncomputable section

namespace Cert.Norm

open Idealize.ShloMosaic Cert.ReferenceIdeal Cert.ReferenceIdeal.Facts₀

section
variable {F : FTy → Type} [FloatOps F]

/-- A column vector spread over the whole array: entry (b, n, h) is the vector's entry n. -/
def spread {α : Type} (v : S2048.Idx → α) : S64x2048x512.Idx → α :=
  broadcastInDim S64x2048x512 ![0, 1, 2] bcast_S1x2048x1_S64x2048x512_0_1_2 (broadcastInDim S1x2048x1 ![1] bcast_S2048_S1x2048x1_1 v)

/-- The reference's whole result from the column statistics and the values. -/
def refOut (ok : IVec S2048 1) (mean std : FVec F S2048 .f32) (a0 : FVec F S64x2048x512 .f32) : FVec F S64x2048x512 .f32 :=
  select (spread ok) (Host.divf (subf a0 (spread mean)) (spread std)) a0
end

/-- A spread column read at an entry is the column at the entry's middle coordinate. -/
theorem spread_apply {α : Type} (v : S2048.Idx → α) (i : S64x2048x512.Idx) (n : S2048.Idx) (hn : (n 0).val = (i 1).val) :
    spread v i = v n := by
  have hi1 : (i 1).val < 2048 := (i 1).isLt
  unfold spread
  refine (broadcastInDim_apply _ _ _ i (fun a => match a with
      | ⟨0, _⟩ => ⟨0, by show 0 < 1; omega⟩
      | ⟨1, _⟩ => ⟨(i 1).val, by show (i 1).val < 2048; omega⟩
      | ⟨2, _⟩ => ⟨0, by show 0 < 1; omega⟩ : S1x2048x1.Idx) (fun a => match a with
      | ⟨0, _⟩ => by show 0 = (if (1 : Nat) = 1 then 0 else (i 0).val); rw [if_pos rfl]
      | ⟨1, _⟩ => by show (i 1).val = (if (2048 : Nat) = 1 then 0 else (i 1).val); rw [if_neg (by decide)]
      | ⟨2, _⟩ => by show 0 = (if (1 : Nat) = 1 then 0 else (i 2).val); rw [if_pos rfl])).trans ?_
  refine broadcastInDim_apply _ _ _ _ n (fun a => match a with
      | ⟨0, _⟩ => by show (n 0).val = (if (2048 : Nat) = 1 then 0 else (i 1).val); rw [if_neg (by decide)]; exact hn)

/-- The reference's result at an entry of column n. -/
theorem refOut_apply (ok : IVec S2048 1) (mean std : FVec Ideal S2048 .f32) (a0 : FVec Ideal S64x2048x512 .f32)
    (i : S64x2048x512.Idx) (n : S2048.Idx) (hn : (n 0).val = (i 1).val) :
    refOut ok mean std a0 i = Scalar.select (ok n) (Ideal.div (a0 i - mean n) (std n)) (a0 i) := by
  unfold refOut
  rw [ValueIdx.select_apply, spread_apply ok i n hn]
  show Scalar.select (ok n) (Ideal.div (a0 i - spread mean i) (spread std i)) (a0 i) = _
  rw [spread_apply mean i n hn, spread_apply std i n hn]

/-- A column vector recast as a [2048, 1] array, read at row r, is the vector's entry r. -/
theorem column_apply {α : Type} (v : Cert.KernelIdeal.S2048.Idx → α) (r : Cert.KernelIdeal.S2048x1.Idx) (n : Cert.KernelIdeal.S2048.Idx)
    (hn : (n 0).val = (r 0).val) :
    shapeCast Cert.KernelIdeal.S2048x1 v Cert.KernelIdeal.Facts₀.shapeCasts_S2048_S2048x1 r = v n := by
  have hr1 : (r 1).val < 1 := (r 1).isLt
  refine shapeCast_apply _ _ r n ?_
  rw [Shape.rowMajor_val_one, Shape.rowMajor_val_two]
  show (n 0).val = (r 0).val * 1 + (r 1).val
  omega

/-- The kernel's shift column at row r: the mean on a normalized column, the zero word elsewhere. -/
theorem shiftCol_apply (ok : IVec Cert.KernelIdeal.S2048 1) (mean : FVec Ideal Cert.KernelIdeal.S2048 .f32) (r : Cert.KernelIdeal.S2048x1.Idx)
    (n : Cert.KernelIdeal.S2048.Idx) (hn : (n 0).val = (r 0).val) :
    shiftCol ok mean r = Scalar.select (ok n) (mean n) (Ideal.ofBits .f32 0x00000000#32) := by
  unfold shiftCol
  rw [column_apply _ r n hn, ValueIdx.select_apply]
  rfl

/-- The kernel's scale column at row r: one over the standard deviation on a normalized column, one over one elsewhere. -/
theorem scaleCol_apply (ok : IVec Cert.KernelIdeal.S2048 1) (std : FVec Ideal Cert.KernelIdeal.S2048 .f32) (r : Cert.KernelIdeal.S2048x1.Idx)
    (n : Cert.KernelIdeal.S2048.Idx) (hn : (n 0).val = (r 0).val) :
    scaleCol ok std r = Ideal.div (Ideal.ofBits .f32 0x3F800000#32) (Scalar.select (ok n) (std n) (Ideal.ofBits .f32 0x3F800000#32)) := by
  unfold scaleCol
  rw [column_apply _ r n hn]
  show Ideal.div (splat (F := Ideal) 0x3F800000#32 n) (select ok std (splat (F := Ideal) 0x3F800000#32) n) = _
  rw [ValueIdx.select_apply]
  rfl

end Cert.Norm

end
-- ==== Proof.RefRead.lean ====
/-
  The reference's result as a function of the five argument arrays.

  Read back from its 95 operations, the result buffer holds the select between the normalised and the untouched
  input: with the merged count, mean and radicand of the statistics module taken at the launch contents of the
  arguments, the mask is "merged count at least 2", the shift is the merged mean, the scale is the square root of
  the radicand (the batch variance in it as the variance helper computes it), each spread over the whole array.
-/
import proofs.«102394_j40862318854702_2_alg».proof.Proof.RefRun
import proofs.«102394_j40862318854702_2_alg».proof.Proof.Stats
import proofs.«102394_j40862318854702_2_alg».proof.Proof.RefSpec
import proofs.«102394_j40862318854702_2_alg».proof.Proof.LibHostLine
import Idealize.ShloMosaic.Lib.StableHlo.Run

noncomputable section

namespace Cert.ReferenceIdeal.RefRead

open Cert.ReferenceIdeal Cert.ReferenceIdeal.Gen Idealize.ShloMosaic Idealize.ShloMosaic.TcCoe Idealize.SL.Sem Idealize.ShloMosaic.StableHlo
open Cert.ReferenceIdeal.RefRun
open Cert.Norm

variable {F : FTy → Type} [FloatOps F]

set_option maxHeartbeats 4000000 in
/-- The result buffer after the line: each operation's result is its function of its operands' results, down to
    the arguments, and that composition is the statistics' definitions put together. -/
theorem out_eq (m : (ℓ : Loc nD τ sig) → Buf (Elt F) ℓ) (d : Dev nD) :
    (after ops (launchContents m d) (Proc.devRef .tc main_v57) : S64x2048x512.Idx → F .f32)
      = refOut (okCol (F := F) (m ((d.tc : Thread nD τ).loc main_arg3)) (m ((d.tc : Thread nD τ).loc main_arg4)))
          (mm (m ((d.tc : Thread nD τ).loc main_arg0)) (m ((d.tc : Thread nD τ).loc main_arg1)) (m ((d.tc : Thread nD τ).loc main_arg3)) (m ((d.tc : Thread nD τ).loc main_arg4)))
          (Host.sqrt (rad (varCall (lastStep (m ((d.tc : Thread nD τ).loc main_arg0)))) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4))))
          (m ((d.tc : Thread nD τ).loc main_arg0)) := by
  after_results_simp
  first | rfl | (simp only [Cert.LibHostLine.ofBuf_toBuf]; rfl)

end Cert.ReferenceIdeal.RefRead

end
-- ==== Proof.VarEq.lean ====
/-
  The batch variance in its two spellings is one function on the extended reals. The called variance divides the sum
  of squared deviations by 64 − ddof and keeps the quotient only where that divisor is positive; its ddof is the
  integer 0 converted to a float, so the divisor is 64 − 0 = 64, which is positive: the guard always passes and the
  quotient is the plain one.
-/
import proofs.«102394_j40862318854702_2_alg».proof.Proof.Stats
import proofs.«102394_j40862318854702_2_alg».proof.Proof.Law
import Idealize.ShloMosaic.Lib.ValueIdx

noncomputable section

namespace Cert.Norm

open Idealize.ShloMosaic Cert.KernelIdeal Cert.KernelIdeal.Facts₀

/-- The divisor 64 − ddof, with ddof the integer zero, is 64. -/
theorem varDivisor_eq : varDivisor (F := Ideal) = constant S_ .f32 0x42800000#32 := by
  funext i
  show (Ideal.ofBits .f32 0x42800000#32 : EReal) - (((0#32 : BitVec 32).toInt : ℝ) : EReal) = Ideal.ofBits .f32 0x42800000#32
  simp

/-- The called variance is the plain one. -/
theorem varCall_eq_varPlain (v : FVec Ideal S64x2048 .f32) : varCall v = varPlain v := by
  unfold varCall varPlain splat
  rw [varDivisor_eq]
  funext n
  rw [ValueIdx.select_apply]
  have hm : (broadcastInDim S2048 ![] bcast_S_S2048 (cmpf .ogt (constant (F := Ideal) S_ .f32 0x42800000#32) (constant (F := Ideal) S_ .f32 0x00000000#32))) n = 1#1 := by
    show Ideal.cmp .ogt (Ideal.ofBits .f32 0x42800000#32) (Ideal.ofBits .f32 0x00000000#32) = 1#1
    rw [Law.cmp_ogt_eq_one, Law.word_64, Law.word_zero]
    exact_mod_cast (by norm_num : (0 : ℝ) < 64)
  rw [hm, ValueIdx.select_one]

end Cert.Norm

end
-- ==== Proof.PreRead.lean ====
/-
  The precondition read back. Beyond the finiteness of the float inputs it says: on every column whose merged count
  reaches 2 — the columns the reference normalizes — the radicand of the merged standard deviation is positive, the
  batch variance being spelt there plainly as the mean of the squared deviations. Its printed form is one boolean
  word, the conjunction over all columns of "count below 2, or radicand above 0"; here that word being 1 is turned
  into the statement for each column, over the statistics as this proof defines them.
-/
import proofs.«102394_j40862318854702_2_alg».proof.Proof.Gen.Pre_finite_inputs
import proofs.«102394_j40862318854702_2_alg».proof.Proof.Stats
import proofs.«102394_j40862318854702_2_alg».proof.Proof.Law
import Idealize.ShloMosaic.Lib.ReduceAll
import Idealize.ShloMosaic.Lib.ValueIdx

noncomputable section

namespace Cert.Norm.PreRead

open Idealize.ShloMosaic Cert.Norm

/-- A rank-0 shape has one index. -/
instance : Subsingleton Cert.Pre_finite_inputs.S_.Idx := ⟨fun a b => funext fun d => d.elim0⟩

section
variable {F : FTy → Type} [FloatOps F]

/-- Column by column: is the merged count below 2, or the radicand (with the plain batch variance) above 0? -/
def colCond (a0 : FVec F Cert.KernelIdeal.S64x2048x512 .f32) (a1 a2 : FVec F Cert.KernelIdeal.S2048 .f32) (a3 a4 : IVec Cert.KernelIdeal.S2048 32) :
    IVec Cert.KernelIdeal.S2048 1 :=
  ori (cmpf .olt (tot (F := F) a3 a4) (splat 0x40000000#32))
    (cmpf .ogt (rad (varPlain (lastStep a0)) a0 a1 a2 a3 a4) (splat 0x00000000#32))

set_option maxHeartbeats 1000000 in
/-- The printed predicate is the conjunction of a word about finiteness with the all-columns conjunction of `colCond`. -/
theorem fn_eq (a0 : FVec F Cert.KernelIdeal.S64x2048x512 .f32) (a1 a2 : FVec F Cert.KernelIdeal.S2048 .f32) (a3 a4 : IVec Cert.KernelIdeal.S2048 32) :
    ∃ p : IVec Cert.Pre_finite_inputs.S_ 1, Cert.Pre_finite_inputs.fn (F := F) a0 a1 a2 a3 a4
      = andi p (Host.reduce IntOp.andi (colCond a0 a1 a2 a3 a4) (constantI Cert.Pre_finite_inputs.S_ 1 1#1)
          Cert.Pre_finite_inputs.Facts.reducesTo_S2048_S_d0 Cert.Pre_finite_inputs.Facts.h_S_) :=
  ⟨_, rfl⟩
end

/-- Under the precondition, on every column the merged count is below 2 or the radicand is positive. -/
theorem column (a0 : FVec Ideal Cert.KernelIdeal.S64x2048x512 .f32) (a1 a2 : FVec Ideal Cert.KernelIdeal.S2048 .f32) (a3 a4 : IVec Cert.KernelIdeal.S2048 32)
    (h : Cert.Pre_finite_inputs.fn (F := Ideal) a0 a1 a2 a3 a4 = fun _ => 1#1) (n : Cert.KernelIdeal.S2048.Idx) :
    tot (F := Ideal) a3 a4 n < Ideal.ofBits .f32 0x40000000#32 ∨ 0 < rad (varPlain (lastStep a0)) a0 a1 a2 a3 a4 n := by
  obtain ⟨p, hp⟩ := fn_eq a0 a1 a2 a3 a4
  rw [hp] at h
  have h0 := congrFun h ValueIdx.ix0
  have h1 : Host.reduce IntOp.andi (colCond a0 a1 a2 a3 a4) (constantI Cert.Pre_finite_inputs.S_ 1 1#1)
      Cert.Pre_finite_inputs.Facts.reducesTo_S2048_S_d0 Cert.Pre_finite_inputs.Facts.h_S_ ValueIdx.ix0 = 1#1 :=
    (IntOp.andi_eq_one.mp h0).2
  have h2 : colCond a0 a1 a2 a3 a4 n = 1#1 := Host.reduce_andi_all _ _ _ _ ValueIdx.ix0 h1 n
  rcases IntOp.ori_eq_one.mp h2 with hlt | hgt
  · exact Or.inl (Law.cmp_olt_eq_one.mp hlt)
  · refine Or.inr ?_
    have := Law.cmp_ogt_eq_one.mp hgt
    rwa [show (splat (F := Ideal) 0x00000000#32) n = Ideal.ofBits .f32 0x00000000#32 from rfl, Law.word_zero] at this

end Cert.Norm.PreRead

end
-- ==== Proof.Bridge.lean ====
/-
  The bridge between the two programs, entry by entry.

  Under the precondition the merged standard deviation is not zero on any normalized column: there the merged count is
  at least 2, so the precondition's other alternative holds — the radicand is positive — and the square root of a
  positive extended real is not zero (the batch variance inside the radicand is the called one on both programs'
  side and the plain one in the precondition: one function). Then at every entry the kernel's (x − shift) · scale is the
  reference's selected quotient.
-/
import proofs.«102394_j40862318854702_2_alg».proof.Proof.Stats
import proofs.«102394_j40862318854702_2_alg».proof.Proof.Law
import proofs.«102394_j40862318854702_2_alg».proof.Proof.VarEq
import proofs.«102394_j40862318854702_2_alg».proof.Proof.PreRead
import proofs.«102394_j40862318854702_2_alg».proof.Proof.RefSpec

noncomputable section

namespace Cert.Norm

open Idealize.ShloMosaic

/-- The common result of both programs as one function of the five argument arrays: the reference's selected quotient
    at the merged mean and merged standard deviation, on the columns whose merged count reaches 2. -/
def outOf {F : FTy → Type} [FloatOps F] (a0 : FVec F Cert.KernelIdeal.S64x2048x512 .f32) (a1 a2 : FVec F Cert.KernelIdeal.S2048 .f32) (a3 a4 : IVec Cert.KernelIdeal.S2048 32) :
    FVec F Cert.KernelIdeal.S64x2048x512 .f32 :=
  refOut (okCol (F := F) a3 a4) (mm a0 a1 a3 a4) (Host.sqrt (rad (varCall (lastStep a0)) a0 a1 a2 a3 a4)) a0

/-- Under the precondition, the merged standard deviation of a normalized column is not zero. -/
theorem std_ne_zero (a0 : FVec Ideal Cert.KernelIdeal.S64x2048x512 .f32) (a1 a2 : FVec Ideal Cert.KernelIdeal.S2048 .f32) (a3 a4 : IVec Cert.KernelIdeal.S2048 32)
    (h : Cert.Pre_finite_inputs.fn (F := Ideal) a0 a1 a2 a3 a4 = fun _ => 1#1) (n : Cert.KernelIdeal.S2048.Idx)
    (hok : okCol (F := Ideal) a3 a4 n = 1#1) :
    Host.sqrt (rad (varCall (lastStep a0)) a0 a1 a2 a3 a4) n ≠ 0 := by
  have hok' : Ideal.cmp .oge (tot (F := Ideal) a3 a4 n) (Ideal.ofBits .f32 0x40000000#32) = 1#1 := hok
  have hge : Ideal.ofBits .f32 0x40000000#32 ≤ tot (F := Ideal) a3 a4 n := Law.cmp_oge_eq_one.mp hok'
  rcases PreRead.column a0 a1 a2 a3 a4 h n with hlt | hpos
  · exact absurd hlt (not_lt.mpr hge)
  · rw [varCall_eq_varPlain]
    show Ideal.sqrt (rad (varPlain (lastStep a0)) a0 a1 a2 a3 a4 n) ≠ 0
    exact Law.sqrt_ne_zero_of_pos _ hpos

/-- One entry: the kernel's affine form over its staged columns, read at the entry's row, is the reference's result. -/
theorem entry_eq (x : FVec Ideal Cert.KernelIdeal.S64x2048x512 .f32) (ok : IVec Cert.KernelIdeal.S2048 1) (mean std : FVec Ideal Cert.KernelIdeal.S2048 .f32)
    (hstd : ∀ n, ok n = 1#1 → std n ≠ 0) (i : Cert.KernelIdeal.S64x2048x512.Idx) (r : Cert.KernelIdeal.S2048x1.Idx) (hr : (r 0).val = (i 1).val) :
    (x i - shiftCol ok mean r) * scaleCol ok std r = refOut ok mean std x i := by
  have hi1 : (i 1).val < 2048 := (i 1).isLt
  let n : Cert.KernelIdeal.S2048.Idx := fun a => match a with | ⟨0, _⟩ => ⟨(i 1).val, by show (i 1).val < 2048; omega⟩
  have hn : (n 0).val = (i 1).val := rfl
  rw [shiftCol_apply ok mean r n (hn.trans hr.symm), scaleCol_apply ok std r n (hn.trans hr.symm), refOut_apply ok mean std x i n hn]
  exact Law.entry (ok n) (x i) (mean n) (std n) (hstd n)

end Cert.Norm

end
-- ==== Proof.lean ====
/-
  The proof of `Cert.Claim` for the per-signature normalizer: the kernel against its jnp reference, over the extended
  reals, under the precondition that the float inputs are finite and that the radicand of the merged standard deviation
  is positive on every column the reference normalizes.

  Both programs first compute, column by column, the same statistics on the host: the merged count tot = c + 64, the
  merged mean m and the merged standard deviation s = sqrt(var + ε) (Proof/Stats.lean; the operations are the same in
  both programs). The reference then returns (x − m) / s on the columns with tot ≥ 2 and x itself elsewhere. The kernel
  stages two columns — shift = m, scale = 1 / s where tot ≥ 2, and shift = 0, scale = 1 / 1 elsewhere — and streams the
  array through (x − shift) · scale, block by block over a 4 × 8 grid.

  The kernel's run leaves the output array at that affine function of the staged columns (Proof/KernelArray.lean, over the
  generated frame run and block form), the columns are read off the host operations (Proof/KernelCols.lean), and the
  reference's run is written from its operation list (Proof/RefRun.lean, Proof/RefRead.lean). Entry by entry the two
  results are one number: dividing by s is multiplying by 1 / s whenever s ≠ 0, for every extended real numerator, and
  (x − 0) · (1 / 1) = x (Proof/Law.lean); s ≠ 0 on a normalized column is what the precondition gives (Proof/PreRead.lean,
  Proof/Bridge.lean). At s = 0 the two programs do differ (0 · (1 / 0) = 0 against 0 / 0), so the precondition is needed.
  The three frames are the generated ones for the two kernel programs and the reference's own run with its result dropped;
  the idealization rewrote nothing, so the preservation claim is trivial.
-/
import proofs.«102394_j40862318854702_2_alg».proof.Defs
import proofs.«102394_j40862318854702_2_alg».proof.Proof.Gen.Kernel
import proofs.«102394_j40862318854702_2_alg».proof.Proof.Gen.Kernel.Skeleton
import proofs.«102394_j40862318854702_2_alg».proof.Proof.Gen.Kernel.Launch
import proofs.«102394_j40862318854702_2_alg».proof.Proof.Gen.Kernel.Points
import proofs.«102394_j40862318854702_2_alg».proof.Proof.Gen.Kernel.Frame
import proofs.«102394_j40862318854702_2_alg».proof.Proof.Gen.KernelIdeal
import proofs.«102394_j40862318854702_2_alg».proof.Proof.Gen.KernelIdeal.Skeleton
import proofs.«102394_j40862318854702_2_alg».proof.Proof.Gen.KernelIdeal.Launch
import proofs.«102394_j40862318854702_2_alg».proof.Proof.Gen.KernelIdeal.Points
import proofs.«102394_j40862318854702_2_alg».proof.Proof.Gen.KernelIdeal.Frame
import proofs.«102394_j40862318854702_2_alg».proof.Proof.Gen.KernelIdeal.Value
import proofs.«102394_j40862318854702_2_alg».proof.Proof.Gen.ReferenceIdeal
import proofs.«102394_j40862318854702_2_alg».proof.Proof.Gen.Pre_finite_inputs
import proofs.«102394_j40862318854702_2_alg».proof.Proof.KernelArray
import proofs.«102394_j40862318854702_2_alg».proof.Proof.KernelCols
import proofs.«102394_j40862318854702_2_alg».proof.Proof.RefRun
import proofs.«102394_j40862318854702_2_alg».proof.Proof.RefRead
import proofs.«102394_j40862318854702_2_alg».proof.Proof.Bridge
import Idealize.ShloMosaic.Adequacy
import Idealize.ShloMosaic.Init

noncomputable section

namespace Cert.Proof

open Idealize.ShloMosaic Idealize.ShloMosaic.TcCoe Idealize.SL.Sem Cert.Norm

/-- Under the precondition, the kernel's affine function of the values and its two staged columns is the common result:
    at every entry, by the entry law, the standard deviation being nonzero on the normalized columns. -/
theorem affine_eq_outOf (a0 : FVec Ideal Cert.KernelIdeal.S64x2048x512 .f32) (a1 a2 : FVec Ideal Cert.KernelIdeal.S2048 .f32) (a3 a4 : IVec Cert.KernelIdeal.S2048 32)
    (h : Cert.Pre_finite_inputs.fn (F := Ideal) a0 a1 a2 a3 a4 = fun _ => 1#1) :
    Cert.KernelIdeal.Arr.affine a0 (shiftCol (okCol (F := Ideal) a3 a4) (mm a0 a1 a3 a4))
        (scaleCol (okCol (F := Ideal) a3 a4) (Host.sqrt (rad (varCall (lastStep a0)) a0 a1 a2 a3 a4)))
      = outOf a0 a1 a2 a3 a4 := by
  funext i
  exact entry_eq a0 _ _ _ (fun n hok => std_ne_zero a0 a1 a2 a3 a4 h n hok) i (Cert.KernelIdeal.Arr.rowOf i) rfl

theorem frame_k : Cert.frame_Kernel := fun m ρ _ => Cert.Kernel.Gen.frame m ρ

theorem frame_ki : Cert.frame_KernelIdeal := fun m ρ _ => Cert.KernelIdeal.Gen.frame m ρ

/-- The reference's frame: its run, the result dropped, each argument array kept. -/
theorem frame_ri : Cert.frame_ReferenceIdeal := fun m ρ _ =>
  (θ_run Cert.ReferenceIdeal.defs _ _).mono (fun _ h c =>
      ⟨(h c _).trans (Cert.ReferenceIdeal.RefRun.kept_arg0 m c), (h c _).trans (Cert.ReferenceIdeal.RefRun.kept_arg1 m c),
       (h c _).trans (Cert.ReferenceIdeal.RefRun.kept_arg2 m c), (h c _).trans (Cert.ReferenceIdeal.RefRun.kept_arg3 m c),
       (h c _).trans (Cert.ReferenceIdeal.RefRun.kept_arg4 m c)⟩)
    (Cert.ReferenceIdeal.RefRun.run_raw (F := Ideal) m ρ)

/-- The idealization rewrote no operation. -/
theorem preserves : Cert.preserves_Kernel_KernelIdeal := trivial

/-- Both runs end with the output array at the common result of the argument arrays. -/
theorem algebraic : Cert.algebraic_KernelIdeal_ReferenceIdeal := by
  intro m ρ m' ρ' hpre hagree
  refine ⟨fun c => outOf (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Arr.run (F := Ideal) m ρ)
    rw [Cert.KernelIdeal.Cols.shift_eq, Cert.KernelIdeal.Cols.scale_eq]
    exact affine_eq_outOf _ _ _ _ _ (hpre c)
  · refine (θ_run Cert.ReferenceIdeal.defs _ _).mono (fun r h c =>
        ⟨(h c _).trans ?_, (h c _).trans (Cert.ReferenceIdeal.RefRun.kept_arg0 m' c), (h c _).trans (Cert.ReferenceIdeal.RefRun.kept_arg1 m' c),
         (h c _).trans (Cert.ReferenceIdeal.RefRun.kept_arg2 m' c), (h c _).trans (Cert.ReferenceIdeal.RefRun.kept_arg3 m' c),
         (h c _).trans (Cert.ReferenceIdeal.RefRun.kept_arg4 m' c)⟩)
      (Cert.ReferenceIdeal.RefRun.run_raw (F := Ideal) m' ρ')
    rw [Cert.ReferenceIdeal.RefRead.out_eq, (hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
